-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S2x1600000 : Shape := ⟨2, ![2, 1600000]⟩
abbrev S13x128 : Shape := ⟨2, ![13, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S13x128 : S_.BroadcastsInDim S13x128 (![] : Fin 0 → Fin S13x128.rank)
  reducesTo_S13x128_S_d0_1 : S13x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x13 .f32) (main_arg1 : IVec S2x1600000 32) (main_arg2 : FVec F S13x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S13x128 .f32 := Host.absf main_arg2
  let main_cst_0 : FVec F S_ .f32 := constant S_ .f32 0x7F800000#32
  let main_v5 : FVec F S13x128 .f32 := broadcastInDim S13x128 ![] bcast_S_S13x128 main_cst_0
  let main_v6 : IVec S13x128 1 := cmpf .olt main_v4 main_v5
  let main_c_1 : IVec S_ 1 := constantI S_ 1 1#1
  let main_v7 : IVec S_ 1 := (fun x v => Host.reduce IntOp.andi x v reducesTo_S13x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x13 : Shape := ⟨2, ![100000, 13]⟩
abbrev S2x1600000 : Shape := ⟨2, ![2, 1600000]⟩
abbrev S13x128 : Shape := ⟨2, ![13, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x13 : Shape := ⟨2, ![10000, 13]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 104
  | .vmem => 30
  | .smem => 0
  | _ => 0

abbrev bufTy : (tb : Table) → Fin (tcTables nBuf tb) → BufTy
  | .hbm, ⟨0, _⟩ => ⟨S100000x13, .f32⟩
  | .hbm, ⟨1, _⟩ => ⟨S2x1600000, .i32⟩
  | .hbm, ⟨2, _⟩ => ⟨S13x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x64, .f32⟩
  | .hbm, ⟨95, _⟩ => ⟨S1700000x1, .f32⟩
  | .hbm, ⟨96, _⟩ => ⟨S1700000x64, .f32⟩
  | .hbm, ⟨97, _⟩ => ⟨S1700000x64, .f32⟩
  | .hbm, ⟨98, _⟩ => ⟨S_, .f32⟩
  | .hbm, ⟨99, _⟩ => ⟨S100000x64, .f32⟩
  | .hbm, ⟨100, _⟩ => ⟨S1700000x1, .i32⟩
  | .hbm, ⟨101, _⟩ => ⟨S100000x64, .f32⟩
  | .hbm, ⟨102, _⟩ => ⟨S1x64, .f32⟩
  | .hbm, ⟨103, _⟩ => ⟨S100000x64, .f32⟩
  | .local _ .vmem, ⟨0, _⟩ => ⟨S10000x13, .f32⟩
  | .local _ .vmem, ⟨1, _⟩ => ⟨S10000x13, .f32⟩
  | .local _ .vmem, ⟨2, _⟩ => ⟨S13x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x13_S10000x13_0_0 : ∀ a, (![0, 0] : Fin 2 → Nat) a + S10000x13.size a ≤ S10000x13.size a
  h_S10000x13 : 0 < S10000x13.numel
  bitsLt_bf16_f32 : FTy.bits .bf16 < FTy.bits .f32
  inb_S13x128_S13x128_0_0 : ∀ a, (![0, 0] : Fin 2 → Nat) a + S13x128.size a ≤ S13x128.size a
  h_S13x128 : 0 < S13x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x13_S13x128_S10000x128_1_0_0_1_n_n_wf : DotDims.WF S10000x13 S13x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x13.size a ≤ S100000x13.size a
  hwx0_0 : ∀ i : grid0.Coords, EltTy.bits .f32 = 32 ∨ (Rect.block (s := S100000x13) S10000x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x128.size a ≤ S13x128.size a
  hwx0_1 : ∀ i : grid0.Coords, EltTy.bits .f32 = 32 ∨ (Rect.block (s := S13x128) S13x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x13_S13x128_S10000x128_1_0_0_1_n_n : DotDims S10000x13 S13x128 S10000x128 where
  lhsContracting := [1]
  rhsContracting := [0]
  lhsNonContracting := [0]
  rhsNonContracting := [1]
  lhsBatch := []
  rhsBatch := []
  wf := dot_S10000x13_S13x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S13x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x13 : Shape := ⟨2, ![100000, 13]⟩
abbrev S2x1600000 : Shape := ⟨2, ![2, 1600000]⟩
abbrev S13x128 : Shape := ⟨2, ![13, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 177
  | .vmem => 0
  | .smem => 0
  | _ => 0

abbrev hbmTy0_0 (i : Nat) : BufTy := match i % 128 with
  | 0 => ⟨S100000x13, .f32⟩
  | 1 => ⟨S2x1600000, .i32⟩
  | 2 => ⟨S13x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x128, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x64, .f32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x64, .f32⟩
  | 112 => ⟨S1700000x1, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S_, .f32⟩
  | 127 => ⟨S1700000, .f32⟩
  | _ => ⟨S100000x13, .f32⟩

abbrev hbmTy0_1 (i : Nat) : BufTy := match i % 128 with
  | 0 => ⟨S_, .f32⟩
  | 1 => ⟨S100000, .f32⟩
  | 2 => ⟨S1700000x1, .i32⟩
  | 3 => ⟨S100000, .f32⟩
  | 4 => ⟨S_, .f32⟩
  | 5 => ⟨S100000, .f32⟩
  | 6 => ⟨S100000, .i1⟩
  | 7 => ⟨S100000, .f32⟩
  | 8 => ⟨S_, .f32⟩
  | 9 => ⟨S100000, .f32⟩
  | 10 => ⟨S100000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000, .f32⟩
  | 29 => ⟨S1700000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x64, .f32⟩
  | 39 => ⟨S1700000x1, .f32⟩
  | 40 => ⟨S1700000x64, .f32⟩
  | 41 => ⟨S1700000x64, .f32⟩
  | 42 => ⟨S_, .f32⟩
  | 43 => ⟨S100000x64, .f32⟩
  | 44 => ⟨S1700000x1, .i32⟩
  | 45 => ⟨S100000x64, .f32⟩
  | 46 => ⟨S1x64, .f32⟩
  | 47 => ⟨S100000x64, .f32⟩
  | 48 => ⟨S100000x64, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_call3_cst : Ref sig .tc := ⟨.hbm, 122, rfl⟩
abbrev main_call3_v0 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_22 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_23 : Ref sig .tc := ⟨.hbm, 136, rfl⟩
abbrev main_v99 : Ref sig .tc := ⟨.hbm, 137, rfl⟩
abbrev main_v100 : Ref sig .tc := ⟨.hbm, 138, rfl⟩
abbrev main_c_24 : Ref sig .tc := ⟨.hbm, 139, rfl⟩
abbrev main_v101 : Ref sig .tc := ⟨.hbm, 140, rfl⟩
abbrev main_v102 : Ref sig .tc := ⟨.hbm, 141, rfl⟩
abbrev main_c_25 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_26 : Ref sig .tc := ⟨.hbm, 148, rfl⟩
abbrev main_v108 : Ref sig .tc := ⟨.hbm, 149, rfl⟩
abbrev main_v109 : Ref sig .tc := ⟨.hbm, 150, rfl⟩
abbrev main_c_27 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_28 : Ref sig .tc := ⟨.hbm, 158, rfl⟩
abbrev main_v116 : Ref sig .tc := ⟨.hbm, 159, rfl⟩
abbrev main_v117 : Ref sig .tc := ⟨.hbm, 160, rfl⟩
abbrev main_c_29 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_30 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x13_S13x128_S100000x128_1_0_0_1_n_n_wf : DotDims.WF S100000x13 S13x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x13_S13x128_S100000x128_1_0_0_1_n_n : DotDims S100000x13 S13x128 S100000x128 where
  lhsContracting := [1]
  rhsContracting := [0]
  lhsNonContracting := [0]
  rhsNonContracting := [1]
  lhsBatch := []
  rhsBatch := []
  wf := dot_S100000x13_S13x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.LibBiasRow.lean ====
/-
  A bias row added to every row of a matrix inside a kernel, read at an entry, at the ideal values.

  The bias arrives as a one-row matrix `[1, K]`. The kernel re-casts both operands to their own shapes (the identity),
  broadcasts the row down the `R` rows, adds, and — for a layer with a rectifier — takes the maximum with a splat zero.
  At entry `(p, k)` that is `A[p,k] + b[0,k]`, respectively `max (A[p,k] + b[0,k]) 0`, the `0` being the all-zero word, which
  is never evaluated. `rowOf` reads the one-row matrix as the vector of its row, so that the result is `biasRelu A (rowOf b)`
  (or `addBias A (rowOf b)`) in the vocabulary of the dense stages; the row of a vector re-cast to one row is the vector.
-/
import proofs.«128877_j87814901334539_1_alg».proof.Proof.LibDenseSpec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

variable {R K : ℕ}

/-- A row bias added, entry by entry (a layer without a rectifier). -/
def addBias (A : FVec Ideal ⟨2, ![R, K]⟩ .f32) (b : FVec Ideal ⟨1, ![K]⟩ .f32) : FVec Ideal ⟨2, ![R, K]⟩ .f32 :=
  fun i => A i + b (ix1 (i 1))

theorem addBias_ix2 (A : FVec Ideal ⟨2, ![R, K]⟩ .f32) (b : FVec Ideal ⟨1, ![K]⟩ .f32) (r : Fin R) (k : Fin K) :
    addBias A b (ix2 r k) = A (ix2 r k) + b (ix1 k) := rfl

/-- The row of a one-row matrix, as a vector. -/
def rowOf {α : Type} (b : (⟨2, ![1, K]⟩ : Shape).Idx → α) : (⟨1, ![K]⟩ : Shape).Idx → α := fun j => b (ix2 (0 : Fin 1) (j 0))

theorem rowOf_ix1 {α : Type} (b : (⟨2, ![1, K]⟩ : Shape).Idx → α) (k : Fin K) : rowOf b (ix1 k) = b (ix2 (0 : Fin 1) k) := rfl

/-- The row of a vector re-cast to a one-row matrix is the vector. -/
theorem rowOf_shapeCast {α : Type} (b : (⟨1, ![K]⟩ : Shape).Idx → α) (h : (⟨1, ![K]⟩ : Shape).ShapeCasts ⟨2, ![1, K]⟩) :
    rowOf (shapeCast ⟨2, ![1, K]⟩ b h) = b := by
  funext j
  obtain ⟨k, rfl⟩ : ∃ k : Fin K, j = ix1 k := ⟨j 0, eq_ix1 j⟩
  rw [rowOf_ix1, shapeCast_a_1a_apply]

/-- A kernel's `relu (A + b)` with the bias as a one-row block, at entry `(p, k)`. -/
theorem biasRelu_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 (rowOf x1) (ix2 p k) := by
  rw [biasRelu_ix2, rowOf_ix1, maximumf_apply, addf_apply, broadcast_apply, shapeCast_self, shapeCast_self, broadcastTo_1b_ab_apply]
  rfl

/-- A kernel's `A + b` with the bias as a one-row block, at entry `(p, k)`. -/
theorem addBias_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    addf (shapeCast ⟨2, ![R, K]⟩ x0 h1) (broadcastTo ⟨2, ![R, K]⟩ (shapeCast ⟨2, ![1, K]⟩ x1 h2) h3) (ix2 p k)
      = addBias x0 (rowOf x1) (ix2 p k) := by
  rw [addBias_ix2, rowOf_ix1, addf_apply, shapeCast_self, shapeCast_self, broadcastTo_1b_ab_apply]

end Cert.Gcn

end
-- ==== Proof.GcnSpec.lean ====
/-
  The three-layer graph convolution of this certificate, as whole-array functions on extended reals.

  There are 100000 nodes. The edge list holds the 1600000 given edges followed by one self loop per node: 1700000 edges,
  edge `j` running from `srcIds e j` to `dstIds e j`. A node's degree is the number of edges that end at it; its weight
  is `1 / sqrt degree` where the degree is positive and `0` elsewhere; an edge's weight `edgeNorm` is the product of the
  weights of its two ends, each end looked up after a negative id is wrapped by adding 100000 (`wrapIds`).
  One propagation step `hop` sends a node-feature matrix `h` to the matrix whose row `n` is the sum, over the edges that
  end at `n`, of the edge's weight times row `src` of `h`. A layer is `hop (x · W) + b`, the first two followed by the
  rectifier: `gcn` is the three layers, of widths 13 → 128 → 64 → 64.
  The gather, the scatter-add and the integer operations are kept as the operations the two programs share and are never
  opened; only the dense stages (the products, the bias and the rectifier) are read entry by entry.
-/
import proofs.«128877_j87814901334539_1_alg».proof.ReferenceIdeal
import proofs.«128877_j87814901334539_1_alg».proof.Proof.LibDenseSpec
import proofs.«128877_j87814901334539_1_alg».proof.Proof.LibBiasRow

noncomputable section

namespace Cert.Gcn

open Idealize.ShloMosaic Idealize.ShloMosaic.ValueIdx Cert.ReferenceIdeal Cert.ReferenceIdeal.Facts₀

variable [Cert.ReferenceIdeal.Facts₀]

/-- The edges' sources: row 0 of the edge list, then every node once (the self loops). -/
def srcIds (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations: row 1 of the edge list, then every node once. -/
def dstIds (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative id counts from the end: 100000 is added to it. -/
def wrapIds (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- The number of edges ending at each node: a one per edge, added up at the edge's destination. -/
def degree (d : IVec S1700000 32) : FVec Ideal S100000 .f32 :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))

/-- `1 / sqrt degree` where the degree is positive, `0` elsewhere. -/
def invSqrtDegree (d : IVec S1700000 32) : FVec Ideal S100000 .f32 :=
  select (cmpf (F := Ideal) .ogt (degree d) (broadcastInDim S100000 ![] bcast_S_S100000 (constant (F := Ideal) S_ .f32 0x00000000#32))) (Host.rsqrt (F := Ideal) (degree d)) (broadcastInDim S100000 ![] bcast_S_S100000 (constant (F := Ideal) S_ .f32 0x00000000#32))

/-- An edge's weight from given node weights: the product of its two ends' weights. -/
def edgeNormOf (dinv : FVec Ideal S100000 .f32) (s d : IVec S1700000 32) : FVec Ideal S1700000 .f32 :=
  mulf (Host.gather gather_S100000_S1700000x1_S1700000_n_0_n_n_0_1_1 dinv (broadcastInDim S1700000x1 ![0] bcast_S1700000_S1700000x1_0 (wrapIds s))) (Host.gather gather_S100000_S1700000x1_S1700000_n_0_n_n_0_1_1 dinv (broadcastInDim S1700000x1 ![0] bcast_S1700000_S1700000x1_0 (wrapIds d)))

/-- An edge's weight: the product of the inverse square roots of its two ends' degrees. -/
def edgeNorm (s d : IVec S1700000 32) : FVec Ideal S1700000 .f32 :=
  edgeNormOf (invSqrtDegree d) s d

/-- One propagation step on 128 columns: row `n` of the result is the sum over the edges ending at `n` of the edge's
    weight `w` times the source's row of `h`. -/
def hop128 (s d : IVec S1700000 32) (w : FVec Ideal S1700000 .f32) (h : FVec Ideal S100000x128 .f32) : FVec Ideal S100000x128 .f32 :=
  Host.scatterAdd (F := Ideal) scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrapIds s))) (broadcastInDim S1700000x128 ![0, 1] bcast_S1700000x1_S1700000x128_0_1 (broadcastInDim S1700000x1 ![0] bcast_S1700000_S1700000x1_0 w)))

/-- The same step on 64 columns. -/
def hop64 (s d : IVec S1700000 32) (w : FVec Ideal S1700000 .f32) (h : FVec Ideal S100000x64 .f32) : FVec Ideal S100000x64 .f32 :=
  Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrapIds s))) (broadcastInDim S1700000x64 ![0, 1] bcast_S1700000x1_S1700000x64_0_1 (broadcastInDim S1700000x1 ![0] bcast_S1700000_S1700000x1_0 w)))

/-- The three layers over given edge ends and edge weights. -/
def layers (s d : IVec S1700000 32) (w : FVec Ideal S1700000 .f32) (x : FVec Ideal S100000x13 .f32)
    (W1 : FVec Ideal S13x128 .f32) (b1 : FVec Ideal S128 .f32) (W2 : FVec Ideal S128x64 .f32) (b2 : FVec Ideal S64 .f32)
    (W3 : FVec Ideal S64x64 .f32) (b3 : FVec Ideal S64 .f32) : FVec Ideal S100000x64 .f32 :=
  addBias (hop64 s d w (linear (biasRelu (hop64 s d w (linear (biasRelu (hop128 s d w (linear x W1)) b1) W2)) b2) W3)) b3

/-- The network's result from the node features `x`, the edge list `e` and the three layers' weights and biases. -/
def gcn (x : FVec Ideal S100000x13 .f32) (e : IVec S2x1600000 32)
    (W1 : FVec Ideal S13x128 .f32) (b1 : FVec Ideal S128 .f32) (W2 : FVec Ideal S128x64 .f32) (b2 : FVec Ideal S64 .f32)
    (W3 : FVec Ideal S64x64 .f32) (b3 : FVec Ideal S64 .f32) : FVec Ideal S100000x64 .f32 :=
  layers (srcIds e) (dstIds e) (edgeNorm (srcIds e) (dstIds e)) x W1 b1 W2 b2 W3 b3

end Cert.Gcn

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibDenseOps.lean ====
/-
  The small operations of a dense stage, read at an entry, at the ideal values.

  A bias vector `b` of length `K` is added to every row of an `R × K` matrix and the rectifier applied. A kernel spells the
  row broadcast `[K] → [1, K] → [R, K]` with a shape cast and a vector broadcast and the rectifier's zero as a scalar
  splat; the host spells the broadcast with two `broadcast_in_dim`s and the zero as a broadcast constant. Either way the
  entry at `(r, k)` is `max (A[r,k] + b[k]) 0`, the `0` being the all-zero word. The same for the one-entry bias of the
  last stage. The logistic function `σ t = 1 / (1 + e⁻ᵗ)`, spelt by the host with the word `0x3F800000` for `1`, is the
  function the kernel's single operation denotes.
-/
import proofs.«128877_j87814901334539_1_alg».proof.Proof.LibDenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx

variable {R K : ℕ}

/-- A kernel's `relu (A + b)` at entry `(p, k)`. -/
theorem biasRelu_vector (x0 : FVec Ideal ⟨2, ![R, K]⟩ .f32) (x1 : FVec Ideal ⟨1, ![K]⟩ .f32)
    (h1 : (⟨2, ![R, K]⟩ : Shape).ShapeCasts ⟨2, ![R, K]⟩) (h2 : (⟨1, ![K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 x1 (ix2 p k) := by
  rw [biasRelu_ix2, maximumf_apply, addf_apply, broadcast_apply, shapeCast_self, broadcastTo_1b_ab_apply, shapeCast_a_1a_apply]
  rfl

/-- A length-`K` vector broadcast over the rows of an `R × K` matrix by two `broadcast_in_dim`s, at entry `(r, k)`. -/
theorem rowBroadcast_host {α : Type} (b : (⟨1, ![K]⟩ : Shape).Idx → α)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2)) (r : Fin R) (k : Fin K) :
    broadcastInDim ⟨2, ![R, K]⟩ (![0, 1] : Fin 2 → Fin 2) h2 (broadcastInDim ⟨2, ![1, K]⟩ (![1] : Fin 1 → Fin 2) h1 b) (ix2 r k) = b (ix1 k) := by
  rw [broadcastInDim_apply (![0, 1] : Fin 2 → Fin 2) h2 _ (ix2 r k) (ix2 (0 : Fin 1) k) (fun a => by
    match a with
    | ⟨0, _⟩ => rfl
    | ⟨1, _⟩ =>
      show k.val = if K = 1 then 0 else k.val
      split
      · have := k.isLt; omega
      · rfl)]
  exact broadcastInDim_apply (![1] : Fin 1 → Fin 2) h1 b (ix2 (0 : Fin 1) k) (ix1 k) (fun a => by
    match a with
    | ⟨0, _⟩ =>
      show k.val = if K = 1 then 0 else k.val
      split
      · have := k.isLt; omega
      · rfl)

/-- The host's `relu (A + b)` at entry `(r, k)`. -/
theorem biasRelu_host (a : FVec Ideal ⟨2, ![R, K]⟩ .f32) (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![R, K]⟩ (![0, 1] : Fin 2 → Fin 2))
    (h3 : (⟨0, ![]⟩ : Shape).BroadcastsInDim ⟨2, ![R, K]⟩ (![] : Fin 0 → Fin 2)) (r : Fin R) (k : Fin K) :
    maximumf (addf a (broadcastInDim ⟨2, ![R, K]⟩ (![0, 1] : Fin 2 → Fin 2) h2 (broadcastInDim ⟨2, ![1, K]⟩ (![1] : Fin 1 → Fin 2) h1 b)))
        (broadcastInDim ⟨2, ![R, K]⟩ (![] : Fin 0 → Fin 2) h3 (constant (F := Ideal) ⟨0, ![]⟩ .f32 0x00000000#32)) (ix2 r k)
      = biasRelu a b (ix2 r k) := by
  rw [biasRelu_ix2, maximumf_apply, addf_apply, rowBroadcast_host b h1 h2 r k,
    broadcastInDim_apply (![] : Fin 0 → Fin 2) h3 _ (ix2 r k) ix0 (fun a => a.elim0)]
  rfl

/-- A constant broadcast to an `R × K` matrix by the host, at any entry: the constant's word. -/
theorem splat_host (h3 : (⟨0, ![]⟩ : Shape).BroadcastsInDim ⟨2, ![R, K]⟩ (![] : Fin 0 → Fin 2)) (w : BitVec 32) (i : (⟨2, ![R, K]⟩ : Shape).Idx) :
    broadcastInDim ⟨2, ![R, K]⟩ (![] : Fin 0 → Fin 2) h3 (constant (F := Ideal) ⟨0, ![]⟩ .f32 w) i = Ideal.ofBits .f32 w := by
  rw [broadcastInDim_apply (![] : Fin 0 → Fin 2) h3 _ i ix0 (fun a => a.elim0)]
  rfl

/-- The word `0x3F800000` is the number one. -/
theorem one_word : Ideal.ofBits .f32 0x3F800000#32 = 1 := by
  simp [Ideal.ofBits, Ideal.ieee, -EReal.coe_mul]; norm_num

/-- The logistic function spelt `1 / (1 + e⁻ᵗ)` with the word for one. -/
theorem logistic_spelt (t : EReal) :
    Ideal.div (Ideal.ofBits .f32 0x3F800000#32) (Ideal.ofBits .f32 0x3F800000#32 + Ideal.exp (-t)) = Ideal.logistic t := by
  rw [one_word]; rfl

/-- The host's `1 / (1 + e^(-z))` at an entry where both of its ones are the word for one: the logistic function of `z`'s
    entry. -/
theorem logistic_host {S : Shape} (one₁ one₂ z : FVec Ideal S .f32) (i : S.Idx)
    (h1 : one₁ i = Ideal.ofBits .f32 0x3F800000#32) (h2 : one₂ i = Ideal.ofBits .f32 0x3F800000#32) :
    Host.divf one₁ (addf one₂ (Host.exp (Host.negf z))) i = Ideal.logistic (z i) := by
  show Ideal.div (one₁ i) (one₂ i + Ideal.exp (-(z i))) = _
  rw [h1, h2, logistic_spelt]

end Cert.Gcn

end
-- ==== Proof.RefValue.lean ====
/-
  The reference program's result is the network `gcn` of its arguments.

  The reference computes each layer on the host as `hop (x · W) + b`, the first two followed by the rectifier, recomputing
  the edges' ends and weights in every layer from the same edge list. Its products are the plain sums over the contracted
  axis; its bias is broadcast over the rows by two broadcasts, and its rectifier is the maximum with a broadcast zero: at an
  entry these are `A[r,k] + b[k]` and `max (A[r,k] + b[k]) 0`. The gather, the scatter-add and the integer operations
  around them are the very terms `hop128`, `hop64`, `srcIds`, `dstIds`, `edgeNorm` name, so the run's result term, written
  with those names, is `gcn` once the three dense stages are read.
-/
import proofs.«128877_j87814901334539_1_alg».proof.Proof.RefRun
import proofs.«128877_j87814901334539_1_alg».proof.Proof.GcnSpec
import proofs.«128877_j87814901334539_1_alg».proof.Proof.LibMatmulSum
import proofs.«128877_j87814901334539_1_alg».proof.Proof.LibDenseOps

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open Cert.Gcn Cert.GraphConv

/-- The host's product of a `[100000, 13]` matrix with a `[13, 128]` matrix is the plain sum over the contracted axis. -/
theorem dot1_eq (x : FVec Ideal S100000x13 .f32) (W : FVec Ideal S13x128 .f32) :
    Host.dotGeneral (F := Ideal) dot_S100000x13_S13x128_S100000x128_1_0_0_1_n_n none x W = linear x W := by
  funext i
  exact dotGeneral_sum (R := 100000) (K := 13) (N := 128) dot_S100000x13_S13x128_S100000x128_1_0_0_1_n_n none _ rfl rfl
    (fun _ _ => rfl) (fun i q => DotDims.lhsIdx_val_of_single _ (cl := 1) rfl i q)
    (fun i q => DotDims.rhsIdx_val_of_single _ (cr := 0) rfl i q) (fun _ _ => rfl) x W i

/-- The host's product of a `[100000, 128]` matrix with a `[128, 64]` matrix is the plain sum over the contracted axis. -/
theorem dot2_eq (x : FVec Ideal S100000x128 .f32) (W : FVec Ideal S128x64 .f32) :
    Host.dotGeneral (F := Ideal) dot_S100000x128_S128x64_S100000x64_1_0_0_1_n_n none x W = linear x W := by
  funext i
  exact dotGeneral_sum (R := 100000) (K := 128) (N := 64) dot_S100000x128_S128x64_S100000x64_1_0_0_1_n_n none _ rfl rfl
    (fun _ _ => rfl) (fun i q => DotDims.lhsIdx_val_of_single _ (cl := 1) rfl i q)
    (fun i q => DotDims.rhsIdx_val_of_single _ (cr := 0) rfl i q) (fun _ _ => rfl) x W i

/-- The host's product of a `[100000, 64]` matrix with a `[64, 64]` matrix is the plain sum over the contracted axis. -/
theorem dot3_eq (x : FVec Ideal S100000x64 .f32) (W : FVec Ideal S64x64 .f32) :
    Host.dotGeneral (F := Ideal) dot_S100000x64_S64x64_S100000x64_1_0_0_1_n_n none x W = linear x W := by
  funext i
  exact dotGeneral_sum (R := 100000) (K := 64) (N := 64) dot_S100000x64_S64x64_S100000x64_1_0_0_1_n_n none _ rfl rfl
    (fun _ _ => rfl) (fun i q => DotDims.lhsIdx_val_of_single _ (cl := 1) rfl i q)
    (fun i q => DotDims.rhsIdx_val_of_single _ (cr := 0) rfl i q) (fun _ _ => rfl) x W i

/-- The host's bias and rectifier on 128 columns. -/
theorem act128_eq (a : FVec Ideal S100000x128 .f32) (b : FVec Ideal S128 .f32) :
    maximumf (addf a (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32)) = biasRelu a b := by
  funext i
  obtain ⟨r, k, rfl⟩ : ∃ (r : Fin 100000) (k : Fin 128), i = ix2 r k := ⟨i 0, i 1, eq_ix2 i⟩
  exact biasRelu_host a b _ _ _ r k

/-- The host's bias and rectifier on 64 columns. -/
theorem act64_eq (a : FVec Ideal S100000x64 .f32) (b : FVec Ideal S64 .f32) :
    maximumf (addf a (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32)) = biasRelu a b := by
  funext i
  obtain ⟨r, k, rfl⟩ : ∃ (r : Fin 100000) (k : Fin 64), i = ix2 r k := ⟨i 0, i 1, eq_ix2 i⟩
  exact biasRelu_host a b _ _ _ r k

/-- The host's bias on 64 columns (the last layer). -/
theorem bias64_eq (a : FVec Ideal S100000x64 .f32) (b : FVec Ideal S64 .f32) :
    addf a (broadcastInDim S100000x64 ![0, 1] bcast_S1x64_S100000x64_0_1 (broadcastInDim S1x64 ![1] bcast_S64_S1x64_1 b)) = addBias a b := by
  funext i
  obtain ⟨r, k, rfl⟩ : ∃ (r : Fin 100000) (k : Fin 64), i = ix2 r k := ⟨i 0, i 1, eq_ix2 i⟩
  rw [addBias_ix2, addf_apply, rowBroadcast_host b _ _ r k]

/-- The three layers as the host spells them, over given edge ends and edge weights. -/
def layersHost (s d : IVec S1700000 32) (w : FVec Ideal S1700000 .f32) (x : FVec Ideal S100000x13 .f32)
    (W1 : FVec Ideal S13x128 .f32) (b1 : FVec Ideal S128 .f32) (W2 : FVec Ideal S128x64 .f32) (b2 : FVec Ideal S64 .f32)
    (W3 : FVec Ideal S64x64 .f32) (b3 : FVec Ideal S64 .f32) : FVec Ideal S100000x64 .f32 :=
  addf (hop64 s d w (Host.dotGeneral (F := Ideal) dot_S100000x64_S64x64_S100000x64_1_0_0_1_n_n none (maximumf (addf (hop64 s d w (Host.dotGeneral (F := Ideal) dot_S100000x128_S128x64_S100000x64_1_0_0_1_n_n none (maximumf (addf (hop128 s d w (Host.dotGeneral (F := Ideal) dot_S100000x13_S13x128_S100000x128_1_0_0_1_n_n none x W1)) (broadcastInDim S100000x128 ![0, 1] bcast_S1x128_S100000x128_0_1 (broadcastInDim S1x128 ![1] bcast_S128_S1x128_1 b1))) (broadcastInDim S100000x128 ![] bcast_S_S100000x128 (constant (F := Ideal) S_ .f32 0x00000000#32))) W2)) (broadcastInDim S100000x64 ![0, 1] bcast_S1x64_S100000x64_0_1 (broadcastInDim S1x64 ![1] bcast_S64_S1x64_1 b2))) (broadcastInDim S100000x64 ![] bcast_S_S100000x64 (constant (F := Ideal) S_ .f32 0x00000000#32))) W3)) (broadcastInDim S100000x64 ![0, 1] bcast_S1x64_S100000x64_0_1 (broadcastInDim S1x64 ![1] bcast_S64_S1x64_1 b3))

/-- The host's spelling of the layers is the layers. -/
theorem layersHost_eq (s d : IVec S1700000 32) (w : FVec Ideal S1700000 .f32) (x : FVec Ideal S100000x13 .f32)
    (W1 : FVec Ideal S13x128 .f32) (b1 : FVec Ideal S128 .f32) (W2 : FVec Ideal S128x64 .f32) (b2 : FVec Ideal S64 .f32)
    (W3 : FVec Ideal S64x64 .f32) (b3 : FVec Ideal S64 .f32) :
    layersHost s d w x W1 b1 W2 b2 W3 b3 = layers s d w x W1 b1 W2 b2 W3 b3 := by
  unfold layersHost layers
  rw [dot1_eq, act128_eq, dot2_eq, act64_eq, dot3_eq, bias64_eq]

/-- The run's result term is the network of the arguments. -/
theorem res_eq (m : (ℓ : Loc nD τ sig) → Buf (Elt Ideal) ℓ) (c : Dev nD) :
    Cert.ReferenceIdeal.ValueP.res_main_v131 (F := Ideal) m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  have h : Cert.ReferenceIdeal.ValueP.res_main_v131 (F := Ideal) m c
      = layersHost (srcIds (m ((c.tc : Thread nD τ).loc main_arg1))) (dstIds (m ((c.tc : Thread nD τ).loc main_arg1)))
          (edgeNorm (srcIds (m ((c.tc : Thread nD τ).loc main_arg1))) (dstIds (m ((c.tc : Thread nD τ).loc main_arg1))))
          (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := rfl
  rw [h, layersHost_eq]
  rfl

end Cert.ReferenceIdeal.RefValue

end
-- ==== Proof.KRun.lean ====
/-
  The idealized kernel's run with its result named.

  The program is six pipelined calls among stretches of host operations. Its run is a fold of the buffer contents
  through those twelve segments: a host stretch applies its operations to the contents it finds, a call leaves its
  arrays at what its write-backs leave and every other buffer as it was. Every weakly fair execution terminates without
  a fault in a state whose unscoped buffers hold the last contents of that fold; read at the result buffer this names the
  result, and read at the argument buffers it walks back to the launch memory.
-/
import proofs.«128877_j87814901334539_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    contents of the fold (`W12`) and the argument arrays as launched. -/
theorem run_named : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Hand

end
-- ==== Proof.KMat0.lean ====
/-
  Pipelined call 0 of the idealized kernel: the first layer's product of the node features with the first weight matrix.

  The grid has ten points; point `t` reads rows `10000·t … 10000·t + 9999` of the left operand and the whole right
  operand, multiplies them (the change of float format on the way in is the identity on extended reals, and the
  accumulator starts at zero), and writes the product back as the same rows of the result. A row block of a product is
  the product of the row block, and the ten row blocks tile the result, so the result array ends holding the whole
  product: entry `(r, c)` is the sum over `k` of `left[r,k] * right[k,c]`.
-/
import proofs.«128877_j87814901334539_1_alg».proof.Proof.Gen.KernelIdeal.Frame
import proofs.«128877_j87814901334539_1_alg».proof.Proof.LibMatmulSum
import proofs.«128877_j87814901334539_1_alg».proof.Proof.LibDenseSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn Cert.GraphConv

variable (V : (c : Dev nD) → (b : Ref sig .tc) → Buf (Elt Ideal) ((c : Thread nD τ).loc b))

theorem hz_mat0 : (![0, 0] : Fin 2 → Nat) = fun _ => 0 := funext fun a => by fin_cases a <;> rfl

/-- The body's product at an entry of the block: the sum over the contracted axis. -/
theorem pay0_apply (x0 : Vec Ideal S10000x13 .f32) (x1 : Vec Ideal S13x128 .f32) (p : Fin 10000) (q : Fin 128) :
    k0_pay1 x0 x1 (ix2 p q) = ∑ k : Fin 13, x0 (ix2 p k) * x1 (ix2 k q) := by
  unfold k0_pay1
  exact matmul_zero_sum (R := 10000) (K := 13) (N := 128) dot_S10000x13_S13x128_S10000x128_1_0_0_1_n_n none rfl rfl
    (fun _ _ => rfl) (fun i q => DotDims.lhsIdx_val_of_single _ (cl := 1) rfl i q)
    (fun i q => DotDims.rhsIdx_val_of_single _ (cr := 0) rfl i q) (fun _ _ => rfl) _ _ (ix2 p q)

/-- What a point computes from its blocks is the product of the whole arrays at the block's place: `x0` holds rows
    `10000·n …` of `X`, `x1` is `Wt`, and entry `j` of the block sits at entry `i` of the array. -/
theorem block0_apply (X : FVec Ideal S100000x13 .f32) (Wt : FVec Ideal S13x128 .f32)
    (x0 : Vec Ideal S10000x13 .f32) (x1 : Vec Ideal S13x128 .f32) (n : ℕ)
    (h0 : ∀ (y : S10000x13.Idx) (i : S100000x13.Idx), (i 0).val = n * 10000 + (y 0).val → (i 1).val = (y 1).val → x0 y = X i)
    (h1 : ∀ y : S13x128.Idx, x1 y = Wt y)
    (j : S10000x128.Idx) (i : S100000x128.Idx) (hi0 : (i 0).val = n * 10000 + (j 0).val) (hi1 : (i 1).val = (j 1).val) :
    k0_pay1 x0 x1 j = linear X Wt i := by
  obtain ⟨p, q, rfl⟩ : ∃ (p : Fin 10000) (q : Fin 128), j = ix2 p q := ⟨j 0, j 1, eq_ix2 j⟩
  obtain ⟨r, c, rfl⟩ : ∃ (r : Fin 100000) (c : Fin 128), i = ix2 r c := ⟨i 0, i 1, eq_ix2 i⟩
  have hc : c = q := Fin.ext hi1
  subst hc
  rw [pay0_apply, linear_ix2]
  refine Finset.sum_congr rfl fun k _ => ?_
  rw [h0 (ix2 p k) (ix2 r k) hi0 rfl, h1]

/-- The printed index maps, decided over the grid: the left operand's and the result's blocks move down the rows with
    the point, the right operand's block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the call finds them. -/
theorem flushed0_eq (c : Dev nD) (t : Fin cfg0.N) :
    (dat0 V c).flushed 2 t = ((cfg0.win 2).blk t).view.read (Elt Ideal) (linear (V c main_arg0) (V c main_arg2)) := by
  show (cfg0.win 2).cut (grid0.coords t) ((dat0 V c).after 2 t) = _
  rw [after0_2]
  unfold out0_2
  rw [View.canon_unit_zero hz_mat0]
  simp only [View.ld_unit_zero (S := S10000x13) hz_mat0, View.ld_unit_zero (S := S13x128) hz_mat0]
  obtain ⟨e0, e1, e2, e3, e4, e5⟩ := idx_facts0 t
  funext j
  show k0_pay1 (fun y => V c main_arg0 (((cfg0.win 0).blk t).view.emb y)) (fun y => V c main_arg2 (((cfg0.win 1).blk t).view.emb y)) j
    = linear (V c main_arg0) (V c main_arg2) (((cfg0.win 2).blk t).view.emb j)
  refine block0_apply (V c main_arg0) (V c main_arg2) _ _ t.val (fun y i h0 h1 => ?_) (fun y => ?_) j _ ?_ ?_
  · refine congrArg (V c main_arg0) (funext fun a => Fin.ext ?_)
    match a with
    | ⟨0, _⟩ => show win0_0.index t (0 : Fin 2) * 10000 + 1 * (y 0).val = (i 0).val; rw [e0, h0]; omega
    | ⟨1, _⟩ => show win0_0.index t (1 : Fin 2) * 13 + 1 * (y 1).val = (i 1).val; rw [e1, h1]; omega
  · refine congrArg (V c main_arg2) (funext fun a => Fin.ext ?_)
    match a with
    | ⟨0, _⟩ => show win0_1.index t (0 : Fin 2) * 13 + 1 * (y 0).val = (y 0).val; rw [e2]; omega
    | ⟨1, _⟩ => show win0_1.index t (1 : Fin 2) * 128 + 1 * (y 1).val = (y 1).val; rw [e3]; omega
  · show win0_2.index t (0 : Fin 2) * 10000 + 1 * (j 0).val = t.val * 10000 + (j 0).val; rw [e4]; omega
  · show win0_2.index t (1 : Fin 2) * 128 + 1 * (j 1).val = (j 1).val; rw [e5]; omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Row `r` of the result lies in the block of point `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e4]; show (i 0).val / 10000 * 10000 ≤ (i 0).val ∧ (i 0).val < (i 0).val / 10000 * 10000 + 10000; omega
  | ⟨1, _⟩ =>
    show win0_2.index t (1 : Fin 2) * 128 ≤ (i 1).val ∧ (i 1).val < win0_2.index t (1 : Fin 2) * 128 + 128
    rw [e5]; omega

/-- After the call the result array holds the product of the two arrays as the call found them. -/
theorem final0 (c : Dev nD) : (dat0 V c).arrAt 2 cfg0.N = linear (V c main_arg0) (V c main_arg2) :=
  (dat0 V c).arrAt_eq_of_cover 2 (linear (V c main_arg0) (V c main_arg2)) (fun t _ => flushed0_eq V c t) (cover0)

end Cert.KernelIdeal.Hand

end
-- ==== Proof.KBias1.lean ====
/-
  Pipelined call 1 of the idealized kernel: the first layer's bias and rectifier.

  The grid has ten points; point `t` reads rows `10000·t … 10000·t + 9999` of the aggregated matrix and the whole one-row
  bias, adds the bias row to each of them and applies the rectifier, and writes the rows back in place in the result. Each entry depends on its
  own entry of the matrix and on the bias entry of its column only, and the ten row blocks tile the result, so the result
  array ends holding `max (A[r,k] + b[k]) 0` at every entry `(r, k)`.
-/
import proofs.«128877_j87814901334539_1_alg».proof.Proof.Gen.KernelIdeal.Frame
import proofs.«128877_j87814901334539_1_alg».proof.Proof.LibDenseSpec
import proofs.«128877_j87814901334539_1_alg».proof.Proof.LibBiasRow
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

theorem hz_bias1 : (![0, 0] : Fin 2 → Nat) = fun _ => 0 := funext fun a => by fin_cases a <;> rfl

/-- The body's value at an entry of the block. -/
theorem bpay1_apply (x0 : Vec Ideal S10000x128 .f32) (x1 : Vec Ideal S1x128 .f32) (p : Fin 10000) (q : Fin 128) :
    k1_pay1 x0 x1 (ix2 p q) = biasRelu x0 (rowOf x1) (ix2 p q) := by
  unfold k1_pay1
  exact biasRelu_rowBlock x0 x1 _ _ _ p q

/-- What a point computes from its blocks is the whole arrays' value at the block's place: `x0` holds rows
    `10000·n …` of `A`, `x1` is the bias row, and entry `j` of the block sits at entry `i` of the array. -/
theorem bblock1_apply (A : FVec Ideal S100000x128 .f32) (b1 : FVec Ideal S1x128 .f32)
    (x0 : Vec Ideal S10000x128 .f32) (x1 : Vec Ideal S1x128 .f32) (n : ℕ)
    (h0 : ∀ (y : S10000x128.Idx) (i : S100000x128.Idx), (i 0).val = n * 10000 + (y 0).val → (i 1).val = (y 1).val → x0 y = A i)
    (h1 : ∀ y : S1x128.Idx, x1 y = b1 y)
    (j : S10000x128.Idx) (i : S100000x128.Idx) (hi0 : (i 0).val = n * 10000 + (j 0).val) (hi1 : (i 1).val = (j 1).val) :
    k1_pay1 x0 x1 j = biasRelu A (rowOf b1) i := by
  obtain ⟨p, q, rfl⟩ : ∃ (p : Fin 10000) (q : Fin 128), j = ix2 p q := ⟨j 0, j 1, eq_ix2 j⟩
  obtain ⟨r, c, rfl⟩ : ∃ (r : Fin 100000) (c : Fin 128), i = ix2 r c := ⟨i 0, i 1, eq_ix2 i⟩
  have hc : c = q := Fin.ext hi1
  subst hc
  rw [bpay1_apply, biasRelu_ix2, biasRelu_ix2, rowOf_ix1, rowOf_ix1, h0 (ix2 p c) (ix2 r c) hi0 rfl, h1]

/-- The printed index maps, decided over the grid: the matrix's and the result's blocks move down the rows with the
    point, the bias's block stays. -/
theorem bidx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole arrays' value as the call finds them. -/
theorem bflushed1_eq (c : Dev nD) (t : Fin cfg1.N) :
    (dat1 V c).flushed 2 t = ((cfg1.win 2).blk t).view.read (Elt Ideal) (biasRelu (V c main_v44) (rowOf (V c main_v45))) := by
  show (cfg1.win 2).cut (grid1.coords t) ((dat1 V c).after 2 t) = _
  rw [after1_2]
  unfold out1_2
  rw [View.canon_unit_zero hz_bias1]
  simp only [View.ld_unit_zero (S := S10000x128) hz_bias1, View.ld_unit_zero (S := S1x128) hz_bias1]
  obtain ⟨e0, e1, e2, e3, e4, e5⟩ := bidx_facts1 t
  funext j
  show k1_pay1 (fun y => V c main_v44 (((cfg1.win 0).blk t).view.emb y)) (fun y => V c main_v45 (((cfg1.win 1).blk t).view.emb y)) j
    = biasRelu (V c main_v44) (rowOf (V c main_v45)) (((cfg1.win 2).blk t).view.emb j)
  refine bblock1_apply (V c main_v44) (V c main_v45) _ _ t.val (fun y i h0 h1 => ?_) (fun y => ?_) j _ ?_ ?_
  · refine congrArg (V c main_v44) (funext fun a => Fin.ext ?_)
    match a with
    | ⟨0, _⟩ => show win1_0.index t (0 : Fin 2) * 10000 + 1 * (y 0).val = (i 0).val; rw [e0, h0]; omega
    | ⟨1, _⟩ => show win1_0.index t (1 : Fin 2) * 128 + 1 * (y 1).val = (i 1).val; rw [e1, h1]; omega
  · refine congrArg (V c main_v45) (funext fun a => Fin.ext ?_)
    match a with
    | ⟨0, _⟩ => show win1_1.index t (0 : Fin 2) * 1 + 1 * (y 0).val = (y 0).val; rw [e2]; omega
    | ⟨1, _⟩ => show win1_1.index t (1 : Fin 2) * 128 + 1 * (y 1).val = (y 1).val; rw [e3]; omega
  · show win1_2.index t (0 : Fin 2) * 10000 + 1 * (j 0).val = t.val * 10000 + (j 0).val; rw [e4]; omega
  · show win1_2.index t (1 : Fin 2) * 128 + 1 * (j 1).val = (j 1).val; rw [e5]; omega

/-- An index of the result array is in point `t`'s block iff each coordinate is in the block's range on its axis. -/
theorem bmem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- Row `r` of the result lies in the block of point `r / 10000`. -/
theorem bcover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨e0, e1, e2, e3, e4, e5⟩ := bidx_facts1 t
  refine ⟨t, flush1_2 t, ?_⟩
  rw [bmem_blk1]
  intro a
  match a with
  | ⟨0, _⟩ =>
    show win1_2.index t (0 : Fin 2) * 10000 ≤ (i 0).val ∧ (i 0).val < win1_2.index t (0 : Fin 2) * 10000 + 10000
    rw [e4]; show (i 0).val / 10000 * 10000 ≤ (i 0).val ∧ (i 0).val < (i 0).val / 10000 * 10000 + 10000; omega
  | ⟨1, _⟩ =>
    show win1_2.index t (1 : Fin 2) * 128 ≤ (i 1).val ∧ (i 1).val < win1_2.index t (1 : Fin 2) * 128 + 128
    rw [e5]; omega

/-- After the call the result array holds the whole arrays' value, as the call found them. -/
theorem bfinal1 (c : Dev nD) : (dat1 V c).arrAt 2 cfg1.N = biasRelu (V c main_v44) (rowOf (V c main_v45)) :=
  (dat1 V c).arrAt_eq_of_cover 2 (biasRelu (V c main_v44) (rowOf (V c main_v45))) (fun t _ => bflushed1_eq V c t) (bcover1)

end Cert.KernelIdeal.Hand

end
-- ==== Proof.KMat2.lean ====
/-
  Pipelined call 2 of the idealized kernel: the second layer's product of the first layer's output with the second weight matrix.

  The grid has ten points; point `t` reads rows `10000·t … 10000·t + 9999` of the left operand and the whole right
  operand, multiplies them (the change of float format on the way in is the identity on extended reals, and the
  accumulator starts at zero), and writes the product back as the same rows of the result. A row block of a product is
  the product of the row block, and the ten row blocks tile the result, so the result array ends holding the whole
  product: entry `(r, c)` is the sum over `k` of `left[r,k] * right[k,c]`.
-/
import proofs.«128877_j87814901334539_1_alg».proof.Proof.Gen.KernelIdeal.Frame
import proofs.«128877_j87814901334539_1_alg».proof.Proof.LibMatmulSum
import proofs.«128877_j87814901334539_1_alg».proof.Proof.LibDenseSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn Cert.GraphConv

variable (V : (c : Dev nD) → (b : Ref sig .tc) → Buf (Elt Ideal) ((c : Thread nD τ).loc b))

theorem hz_mat2 : (![0, 0] : Fin 2 → Nat) = fun _ => 0 := funext fun a => by fin_cases a <;> rfl

/-- The body's product at an entry of the block: the sum over the contracted axis. -/
theorem pay2_apply (x0 : Vec Ideal S10000x128 .f32) (x1 : Vec Ideal S128x64 .f32) (p : Fin 10000) (q : Fin 64) :
    k2_pay1 x0 x1 (ix2 p q) = ∑ k : Fin 128, x0 (ix2 p k) * x1 (ix2 k q) := by
  unfold k2_pay1
  rw [shapeCast_self]
  exact matmul_zero_sum (R := 10000) (K := 128) (N := 64) dot_S10000x128_S128x64_S10000x64_1_0_0_1_n_n none rfl rfl
    (fun _ _ => rfl) (fun i q => DotDims.lhsIdx_val_of_single _ (cl := 1) rfl i q)
    (fun i q => DotDims.rhsIdx_val_of_single _ (cr := 0) rfl i q) (fun _ _ => rfl) _ _ (ix2 p q)

/-- What a point computes from its blocks is the product of the whole arrays at the block's place: `x0` holds rows
    `10000·n …` of `X`, `x1` is `Wt`, and entry `j` of the block sits at entry `i` of the array. -/
theorem block2_apply (X : FVec Ideal S100000x128 .f32) (Wt : FVec Ideal S128x64 .f32)
    (x0 : Vec Ideal S10000x128 .f32) (x1 : Vec Ideal S128x64 .f32) (n : ℕ)
    (h0 : ∀ (y : S10000x128.Idx) (i : S100000x128.Idx), (i 0).val = n * 10000 + (y 0).val → (i 1).val = (y 1).val → x0 y = X i)
    (h1 : ∀ y : S128x64.Idx, x1 y = Wt y)
    (j : S10000x64.Idx) (i : S100000x64.Idx) (hi0 : (i 0).val = n * 10000 + (j 0).val) (hi1 : (i 1).val = (j 1).val) :
    k2_pay1 x0 x1 j = linear X Wt i := by
  obtain ⟨p, q, rfl⟩ : ∃ (p : Fin 10000) (q : Fin 64), j = ix2 p q := ⟨j 0, j 1, eq_ix2 j⟩
  obtain ⟨r, c, rfl⟩ : ∃ (r : Fin 100000) (c : Fin 64), i = ix2 r c := ⟨i 0, i 1, eq_ix2 i⟩
  have hc : c = q := Fin.ext hi1
  subst hc
  rw [pay2_apply, linear_ix2]
  refine Finset.sum_congr rfl fun k _ => ?_
  rw [h0 (ix2 p k) (ix2 r k) hi0 rfl, h1]

/-- The printed index maps, decided over the grid: the left operand's and the result's blocks move down the rows with
    the point, the right operand's block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the call finds them. -/
theorem flushed2_eq (c : Dev nD) (t : Fin cfg2.N) :
    (dat2 V c).flushed 2 t = ((cfg2.win 2).blk t).view.read (Elt Ideal) (linear (V c main_v46) (V c main_arg4)) := by
  show (cfg2.win 2).cut (grid2.coords t) ((dat2 V c).after 2 t) = _
  rw [after2_2]
  unfold out2_2
  rw [View.canon_unit_zero hz_mat2]
  simp only [View.ld_unit_zero (S := S10000x128) hz_mat2, View.ld_unit_zero (S := S128x64) hz_mat2]
  obtain ⟨e0, e1, e2, e3, e4, e5⟩ := idx_facts2 t
  funext j
  show k2_pay1 (fun y => V c main_v46 (((cfg2.win 0).blk t).view.emb y)) (fun y => V c main_arg4 (((cfg2.win 1).blk t).view.emb y)) j
    = linear (V c main_v46) (V c main_arg4) (((cfg2.win 2).blk t).view.emb j)
  refine block2_apply (V c main_v46) (V c main_arg4) _ _ t.val (fun y i h0 h1 => ?_) (fun y => ?_) j _ ?_ ?_
  · refine congrArg (V c main_v46) (funext fun a => Fin.ext ?_)
    match a with
    | ⟨0, _⟩ => show win2_0.index t (0 : Fin 2) * 10000 + 1 * (y 0).val = (i 0).val; rw [e0, h0]; omega
    | ⟨1, _⟩ => show win2_0.index t (1 : Fin 2) * 128 + 1 * (y 1).val = (i 1).val; rw [e1, h1]; omega
  · refine congrArg (V c main_arg4) (funext fun a => Fin.ext ?_)
    match a with
    | ⟨0, _⟩ => show win2_1.index t (0 : Fin 2) * 128 + 1 * (y 0).val = (y 0).val; rw [e2]; omega
    | ⟨1, _⟩ => show win2_1.index t (1 : Fin 2) * 64 + 1 * (y 1).val = (y 1).val; rw [e3]; omega
  · show win2_2.index t (0 : Fin 2) * 10000 + 1 * (j 0).val = t.val * 10000 + (j 0).val; rw [e4]; omega
  · show win2_2.index t (1 : Fin 2) * 64 + 1 * (j 1).val = (j 1).val; rw [e5]; omega

/-- An index of the result array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v47).slice (win2_2.rect t)).set ↔ _
  rw [View.set_slice_whole, Rect.mem_set_unit]
  exact Iff.rfl

/-- Row `r` of the result lies in the block of point `r / 10000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    rw [e4]; show (i 0).val / 10000 * 10000 ≤ (i 0).val ∧ (i 0).val < (i 0).val / 10000 * 10000 + 10000; omega
  | ⟨1, _⟩ =>
    show win2_2.index t (1 : Fin 2) * 64 ≤ (i 1).val ∧ (i 1).val < win2_2.index t (1 : Fin 2) * 64 + 64
    rw [e5]; omega

/-- After the call the result array holds the product of the two arrays as the call found them. -/
theorem final2 (c : Dev nD) : (dat2 V c).arrAt 2 cfg2.N = linear (V c main_v46) (V c main_arg4) :=
  (dat2 V c).arrAt_eq_of_cover 2 (linear (V c main_v46) (V c main_arg4)) (fun t _ => flushed2_eq V c t) (cover2)

end Cert.KernelIdeal.Hand

end
-- ==== Proof.KBias3.lean ====
/-
  Pipelined call 3 of the idealized kernel: the second layer's bias and rectifier.

  The grid has ten points; point `t` reads rows `10000·t … 10000·t + 9999` of the aggregated matrix and the whole one-row
  bias, adds the bias row to each of them and applies the rectifier, and writes the rows back in place in the result. Each entry depends on its
  own entry of the matrix and on the bias entry of its column only, and the ten row blocks tile the result, so the result
  array ends holding `max (A[r,k] + b[k]) 0` at every entry `(r, k)`.
-/
import proofs.«128877_j87814901334539_1_alg».proof.Proof.Gen.KernelIdeal.Frame
import proofs.«128877_j87814901334539_1_alg».proof.Proof.LibDenseSpec
import proofs.«128877_j87814901334539_1_alg».proof.Proof.LibBiasRow
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

theorem hz_bias3 : (![0, 0] : Fin 2 → Nat) = fun _ => 0 := funext fun a => by fin_cases a <;> rfl

/-- The body's value at an entry of the block. -/
theorem bpay3_apply (x0 : Vec Ideal S10000x64 .f32) (x1 : Vec Ideal S1x64 .f32) (p : Fin 10000) (q : Fin 64) :
    k3_pay1 x0 x1 (ix2 p q) = biasRelu x0 (rowOf x1) (ix2 p q) := by
  unfold k3_pay1
  exact biasRelu_rowBlock x0 x1 _ _ _ p q

/-- What a point computes from its blocks is the whole arrays' value at the block's place: `x0` holds rows
    `10000·n …` of `A`, `x1` is the bias row, and entry `j` of the block sits at entry `i` of the array. -/
theorem bblock3_apply (A : FVec Ideal S100000x64 .f32) (b1 : FVec Ideal S1x64 .f32)
    (x0 : Vec Ideal S10000x64 .f32) (x1 : Vec Ideal S1x64 .f32) (n : ℕ)
    (h0 : ∀ (y : S10000x64.Idx) (i : S100000x64.Idx), (i 0).val = n * 10000 + (y 0).val → (i 1).val = (y 1).val → x0 y = A i)
    (h1 : ∀ y : S1x64.Idx, x1 y = b1 y)
    (j : S10000x64.Idx) (i : S100000x64.Idx) (hi0 : (i 0).val = n * 10000 + (j 0).val) (hi1 : (i 1).val = (j 1).val) :
    k3_pay1 x0 x1 j = biasRelu A (rowOf b1) i := by
  obtain ⟨p, q, rfl⟩ : ∃ (p : Fin 10000) (q : Fin 64), j = ix2 p q := ⟨j 0, j 1, eq_ix2 j⟩
  obtain ⟨r, c, rfl⟩ : ∃ (r : Fin 100000) (c : Fin 64), i = ix2 r c := ⟨i 0, i 1, eq_ix2 i⟩
  have hc : c = q := Fin.ext hi1
  subst hc
  rw [bpay3_apply, biasRelu_ix2, biasRelu_ix2, rowOf_ix1, rowOf_ix1, h0 (ix2 p c) (ix2 r c) hi0 rfl, h1]

/-- The printed index maps, decided over the grid: the matrix's and the result's blocks move down the rows with the
    point, the bias's block stays. -/
theorem bidx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole arrays' value as the call finds them. -/
theorem bflushed3_eq (c : Dev nD) (t : Fin cfg3.N) :
    (dat3 V c).flushed 2 t = ((cfg3.win 2).blk t).view.read (Elt Ideal) (biasRelu (V c main_v60) (rowOf (V c main_v61))) := by
  show (cfg3.win 2).cut (grid3.coords t) ((dat3 V c).after 2 t) = _
  rw [after3_2]
  unfold out3_2
  rw [View.canon_unit_zero hz_bias3]
  simp only [View.ld_unit_zero (S := S10000x64) hz_bias3, View.ld_unit_zero (S := S1x64) hz_bias3]
  obtain ⟨e0, e1, e2, e3, e4, e5⟩ := bidx_facts3 t
  funext j
  show k3_pay1 (fun y => V c main_v60 (((cfg3.win 0).blk t).view.emb y)) (fun y => V c main_v61 (((cfg3.win 1).blk t).view.emb y)) j
    = biasRelu (V c main_v60) (rowOf (V c main_v61)) (((cfg3.win 2).blk t).view.emb j)
  refine bblock3_apply (V c main_v60) (V c main_v61) _ _ t.val (fun y i h0 h1 => ?_) (fun y => ?_) j _ ?_ ?_
  · refine congrArg (V c main_v60) (funext fun a => Fin.ext ?_)
    match a with
    | ⟨0, _⟩ => show win3_0.index t (0 : Fin 2) * 10000 + 1 * (y 0).val = (i 0).val; rw [e0, h0]; omega
    | ⟨1, _⟩ => show win3_0.index t (1 : Fin 2) * 64 + 1 * (y 1).val = (i 1).val; rw [e1, h1]; omega
  · refine congrArg (V c main_v61) (funext fun a => Fin.ext ?_)
    match a with
    | ⟨0, _⟩ => show win3_1.index t (0 : Fin 2) * 1 + 1 * (y 0).val = (y 0).val; rw [e2]; omega
    | ⟨1, _⟩ => show win3_1.index t (1 : Fin 2) * 64 + 1 * (y 1).val = (y 1).val; rw [e3]; omega
  · show win3_2.index t (0 : Fin 2) * 10000 + 1 * (j 0).val = t.val * 10000 + (j 0).val; rw [e4]; omega
  · show win3_2.index t (1 : Fin 2) * 64 + 1 * (j 1).val = (j 1).val; rw [e5]; omega

/-- An index of the result array is in point `t`'s block iff each coordinate is in the block's range on its axis. -/
theorem bmem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v62).slice (win3_2.rect t)).set ↔ _
  rw [View.set_slice_whole, Rect.mem_set_unit]
  exact Iff.rfl

/-- Row `r` of the result lies in the block of point `r / 10000`. -/
theorem bcover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e0, e1, e2, e3, e4, e5⟩ := bidx_facts3 t
  refine ⟨t, flush3_2 t, ?_⟩
  rw [bmem_blk3]
  intro a
  match a with
  | ⟨0, _⟩ =>
    show win3_2.index t (0 : Fin 2) * 10000 ≤ (i 0).val ∧ (i 0).val < win3_2.index t (0 : Fin 2) * 10000 + 10000
    rw [e4]; show (i 0).val / 10000 * 10000 ≤ (i 0).val ∧ (i 0).val < (i 0).val / 10000 * 10000 + 10000; omega
  | ⟨1, _⟩ =>
    show win3_2.index t (1 : Fin 2) * 64 ≤ (i 1).val ∧ (i 1).val < win3_2.index t (1 : Fin 2) * 64 + 64
    rw [e5]; omega

/-- After the call the result array holds the whole arrays' value, as the call found them. -/
theorem bfinal3 (c : Dev nD) : (dat3 V c).arrAt 2 cfg3.N = biasRelu (V c main_v60) (rowOf (V c main_v61)) :=
  (dat3 V c).arrAt_eq_of_cover 2 (biasRelu (V c main_v60) (rowOf (V c main_v61))) (fun t _ => bflushed3_eq V c t) (bcover3)

end Cert.KernelIdeal.Hand

end
-- ==== Proof.KMat4.lean ====
/-
  Pipelined call 4 of the idealized kernel: the third layer's product of the second layer's output with the third weight matrix.

  The grid has ten points; point `t` reads rows `10000·t … 10000·t + 9999` of the left operand and the whole right
  operand, multiplies them (the change of float format on the way in is the identity on extended reals, and the
  accumulator starts at zero), and writes the product back as the same rows of the result. A row block of a product is
  the product of the row block, and the ten row blocks tile the result, so the result array ends holding the whole
  product: entry `(r, c)` is the sum over `k` of `left[r,k] * right[k,c]`.
-/
import proofs.«128877_j87814901334539_1_alg».proof.Proof.Gen.KernelIdeal.Frame
import proofs.«128877_j87814901334539_1_alg».proof.Proof.LibMatmulSum
import proofs.«128877_j87814901334539_1_alg».proof.Proof.LibDenseSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn Cert.GraphConv

variable (V : (c : Dev nD) → (b : Ref sig .tc) → Buf (Elt Ideal) ((c : Thread nD τ).loc b))

theorem hz_mat4 : (![0, 0] : Fin 2 → Nat) = fun _ => 0 := funext fun a => by fin_cases a <;> rfl

/-- The body's product at an entry of the block: the sum over the contracted axis. -/
theorem pay4_apply (x0 : Vec Ideal S10000x64 .f32) (x1 : Vec Ideal S64x64 .f32) (p : Fin 10000) (q : Fin 64) :
    k4_pay1 x0 x1 (ix2 p q) = ∑ k : Fin 64, x0 (ix2 p k) * x1 (ix2 k q) := by
  unfold k4_pay1
  rw [shapeCast_self]
  exact matmul_zero_sum (R := 10000) (K := 64) (N := 64) dot_S10000x64_S64x64_S10000x64_1_0_0_1_n_n none rfl rfl
    (fun _ _ => rfl) (fun i q => DotDims.lhsIdx_val_of_single _ (cl := 1) rfl i q)
    (fun i q => DotDims.rhsIdx_val_of_single _ (cr := 0) rfl i q) (fun _ _ => rfl) _ _ (ix2 p q)

/-- What a point computes from its blocks is the product of the whole arrays at the block's place: `x0` holds rows
    `10000·n …` of `X`, `x1` is `Wt`, and entry `j` of the block sits at entry `i` of the array. -/
theorem block4_apply (X : FVec Ideal S100000x64 .f32) (Wt : FVec Ideal S64x64 .f32)
    (x0 : Vec Ideal S10000x64 .f32) (x1 : Vec Ideal S64x64 .f32) (n : ℕ)
    (h0 : ∀ (y : S10000x64.Idx) (i : S100000x64.Idx), (i 0).val = n * 10000 + (y 0).val → (i 1).val = (y 1).val → x0 y = X i)
    (h1 : ∀ y : S64x64.Idx, x1 y = Wt y)
    (j : S10000x64.Idx) (i : S100000x64.Idx) (hi0 : (i 0).val = n * 10000 + (j 0).val) (hi1 : (i 1).val = (j 1).val) :
    k4_pay1 x0 x1 j = linear X Wt i := by
  obtain ⟨p, q, rfl⟩ : ∃ (p : Fin 10000) (q : Fin 64), j = ix2 p q := ⟨j 0, j 1, eq_ix2 j⟩
  obtain ⟨r, c, rfl⟩ : ∃ (r : Fin 100000) (c : Fin 64), i = ix2 r c := ⟨i 0, i 1, eq_ix2 i⟩
  have hc : c = q := Fin.ext hi1
  subst hc
  rw [pay4_apply, linear_ix2]
  refine Finset.sum_congr rfl fun k _ => ?_
  rw [h0 (ix2 p k) (ix2 r k) hi0 rfl, h1]

/-- The printed index maps, decided over the grid: the left operand's and the result's blocks move down the rows with
    the point, the right operand's block stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the call finds them. -/
theorem flushed4_eq (c : Dev nD) (t : Fin cfg4.N) :
    (dat4 V c).flushed 2 t = ((cfg4.win 2).blk t).view.read (Elt Ideal) (linear (V c main_v62) (V c main_arg6)) := by
  show (cfg4.win 2).cut (grid4.coords t) ((dat4 V c).after 2 t) = _
  rw [after4_2]
  unfold out4_2
  rw [View.canon_unit_zero hz_mat4]
  simp only [View.ld_unit_zero (S := S10000x64) hz_mat4, View.ld_unit_zero (S := S64x64) hz_mat4]
  obtain ⟨e0, e1, e2, e3, e4, e5⟩ := idx_facts4 t
  funext j
  show k4_pay1 (fun y => V c main_v62 (((cfg4.win 0).blk t).view.emb y)) (fun y => V c main_arg6 (((cfg4.win 1).blk t).view.emb y)) j
    = linear (V c main_v62) (V c main_arg6) (((cfg4.win 2).blk t).view.emb j)
  refine block4_apply (V c main_v62) (V c main_arg6) _ _ t.val (fun y i h0 h1 => ?_) (fun y => ?_) j _ ?_ ?_
  · refine congrArg (V c main_v62) (funext fun a => Fin.ext ?_)
    match a with
    | ⟨0, _⟩ => show win4_0.index t (0 : Fin 2) * 10000 + 1 * (y 0).val = (i 0).val; rw [e0, h0]; omega
    | ⟨1, _⟩ => show win4_0.index t (1 : Fin 2) * 64 + 1 * (y 1).val = (i 1).val; rw [e1, h1]; omega
  · refine congrArg (V c main_arg6) (funext fun a => Fin.ext ?_)
    match a with
    | ⟨0, _⟩ => show win4_1.index t (0 : Fin 2) * 64 + 1 * (y 0).val = (y 0).val; rw [e2]; omega
    | ⟨1, _⟩ => show win4_1.index t (1 : Fin 2) * 64 + 1 * (y 1).val = (y 1).val; rw [e3]; omega
  · show win4_2.index t (0 : Fin 2) * 10000 + 1 * (j 0).val = t.val * 10000 + (j 0).val; rw [e4]; omega
  · show win4_2.index t (1 : Fin 2) * 64 + 1 * (j 1).val = (j 1).val; rw [e5]; omega

/-- An index of the result array is in point `t`'s block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v63).slice (win4_2.rect t)).set ↔ _
  rw [View.set_slice_whole, Rect.mem_set_unit]
  exact Iff.rfl

/-- Row `r` of the result lies in the block of point `r / 10000`. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨e0, e1, e2, e3, e4, e5⟩ := idx_facts4 t
  refine ⟨t, flush4_2 t, ?_⟩
  rw [mem_blk4]
  intro a
  match a with
  | ⟨0, _⟩ =>
    show win4_2.index t (0 : Fin 2) * 10000 ≤ (i 0).val ∧ (i 0).val < win4_2.index t (0 : Fin 2) * 10000 + 10000
    rw [e4]; show (i 0).val / 10000 * 10000 ≤ (i 0).val ∧ (i 0).val < (i 0).val / 10000 * 10000 + 10000; omega
  | ⟨1, _⟩ =>
    show win4_2.index t (1 : Fin 2) * 64 ≤ (i 1).val ∧ (i 1).val < win4_2.index t (1 : Fin 2) * 64 + 64
    rw [e5]; omega

/-- After the call the result array holds the product of the two arrays as the call found them. -/
theorem final4 (c : Dev nD) : (dat4 V c).arrAt 2 cfg4.N = linear (V c main_v62) (V c main_arg6) :=
  (dat4 V c).arrAt_eq_of_cover 2 (linear (V c main_v62) (V c main_arg6)) (fun t _ => flushed4_eq V c t) (cover4)

end Cert.KernelIdeal.Hand

end
-- ==== Proof.KBias5.lean ====
/-
  Pipelined call 5 of the idealized kernel: the third layer's bias.

  The grid has ten points; point `t` reads rows `10000·t … 10000·t + 9999` of the aggregated matrix and the whole one-row
  bias, adds the bias row to each of them, and writes the rows back in place in the result. Each entry depends on its
  own entry of the matrix and on the bias entry of its column only, and the ten row blocks tile the result, so the result
  array ends holding `A[r,k] + b[k]` at every entry `(r, k)`.
-/
import proofs.«128877_j87814901334539_1_alg».proof.Proof.Gen.KernelIdeal.Frame
import proofs.«128877_j87814901334539_1_alg».proof.Proof.LibDenseSpec
import proofs.«128877_j87814901334539_1_alg».proof.Proof.LibBiasRow
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

theorem hz_bias5 : (![0, 0] : Fin 2 → Nat) = fun _ => 0 := funext fun a => by fin_cases a <;> rfl

/-- The body's value at an entry of the block. -/
theorem bpay5_apply (x0 : Vec Ideal S10000x64 .f32) (x1 : Vec Ideal S1x64 .f32) (p : Fin 10000) (q : Fin 64) :
    k5_pay1 x0 x1 (ix2 p q) = addBias x0 (rowOf x1) (ix2 p q) := by
  unfold k5_pay1
  exact addBias_rowBlock x0 x1 _ _ _ p q

/-- What a point computes from its blocks is the whole arrays' value at the block's place: `x0` holds rows
    `10000·n …` of `A`, `x1` is the bias row, and entry `j` of the block sits at entry `i` of the array. -/
theorem bblock5_apply (A : FVec Ideal S100000x64 .f32) (b1 : FVec Ideal S1x64 .f32)
    (x0 : Vec Ideal S10000x64 .f32) (x1 : Vec Ideal S1x64 .f32) (n : ℕ)
    (h0 : ∀ (y : S10000x64.Idx) (i : S100000x64.Idx), (i 0).val = n * 10000 + (y 0).val → (i 1).val = (y 1).val → x0 y = A i)
    (h1 : ∀ y : S1x64.Idx, x1 y = b1 y)
    (j : S10000x64.Idx) (i : S100000x64.Idx) (hi0 : (i 0).val = n * 10000 + (j 0).val) (hi1 : (i 1).val = (j 1).val) :
    k5_pay1 x0 x1 j = addBias A (rowOf b1) i := by
  obtain ⟨p, q, rfl⟩ : ∃ (p : Fin 10000) (q : Fin 64), j = ix2 p q := ⟨j 0, j 1, eq_ix2 j⟩
  obtain ⟨r, c, rfl⟩ : ∃ (r : Fin 100000) (c : Fin 64), i = ix2 r c := ⟨i 0, i 1, eq_ix2 i⟩
  have hc : c = q := Fin.ext hi1
  subst hc
  rw [bpay5_apply, addBias_ix2, addBias_ix2, rowOf_ix1, rowOf_ix1, h0 (ix2 p c) (ix2 r c) hi0 rfl, h1]

/-- The printed index maps, decided over the grid: the matrix's and the result's blocks move down the rows with the
    point, the bias's block stays. -/
theorem bidx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole arrays' value as the call finds them. -/
theorem bflushed5_eq (c : Dev nD) (t : Fin cfg5.N) :
    (dat5 V c).flushed 2 t = ((cfg5.win 2).blk t).view.read (Elt Ideal) (addBias (V c main_v76) (rowOf (V c main_v77))) := by
  show (cfg5.win 2).cut (grid5.coords t) ((dat5 V c).after 2 t) = _
  rw [after5_2]
  unfold out5_2
  rw [View.canon_unit_zero hz_bias5]
  simp only [View.ld_unit_zero (S := S10000x64) hz_bias5, View.ld_unit_zero (S := S1x64) hz_bias5]
  obtain ⟨e0, e1, e2, e3, e4, e5⟩ := bidx_facts5 t
  funext j
  show k5_pay1 (fun y => V c main_v76 (((cfg5.win 0).blk t).view.emb y)) (fun y => V c main_v77 (((cfg5.win 1).blk t).view.emb y)) j
    = addBias (V c main_v76) (rowOf (V c main_v77)) (((cfg5.win 2).blk t).view.emb j)
  refine bblock5_apply (V c main_v76) (V c main_v77) _ _ t.val (fun y i h0 h1 => ?_) (fun y => ?_) j _ ?_ ?_
  · refine congrArg (V c main_v76) (funext fun a => Fin.ext ?_)
    match a with
    | ⟨0, _⟩ => show win5_0.index t (0 : Fin 2) * 10000 + 1 * (y 0).val = (i 0).val; rw [e0, h0]; omega
    | ⟨1, _⟩ => show win5_0.index t (1 : Fin 2) * 64 + 1 * (y 1).val = (i 1).val; rw [e1, h1]; omega
  · refine congrArg (V c main_v77) (funext fun a => Fin.ext ?_)
    match a with
    | ⟨0, _⟩ => show win5_1.index t (0 : Fin 2) * 1 + 1 * (y 0).val = (y 0).val; rw [e2]; omega
    | ⟨1, _⟩ => show win5_1.index t (1 : Fin 2) * 64 + 1 * (y 1).val = (y 1).val; rw [e3]; omega
  · show win5_2.index t (0 : Fin 2) * 10000 + 1 * (j 0).val = t.val * 10000 + (j 0).val; rw [e4]; omega
  · show win5_2.index t (1 : Fin 2) * 64 + 1 * (j 1).val = (j 1).val; rw [e5]; omega

/-- An index of the result array is in point `t`'s block iff each coordinate is in the block's range on its axis. -/
theorem bmem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v78).slice (win5_2.rect t)).set ↔ _
  rw [View.set_slice_whole, Rect.mem_set_unit]
  exact Iff.rfl

/-- Row `r` of the result lies in the block of point `r / 10000`. -/
theorem bcover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  obtain ⟨e0, e1, e2, e3, e4, e5⟩ := bidx_facts5 t
  refine ⟨t, flush5_2 t, ?_⟩
  rw [bmem_blk5]
  intro a
  match a with
  | ⟨0, _⟩ =>
    show win5_2.index t (0 : Fin 2) * 10000 ≤ (i 0).val ∧ (i 0).val < win5_2.index t (0 : Fin 2) * 10000 + 10000
    rw [e4]; show (i 0).val / 10000 * 10000 ≤ (i 0).val ∧ (i 0).val < (i 0).val / 10000 * 10000 + 10000; omega
  | ⟨1, _⟩ =>
    show win5_2.index t (1 : Fin 2) * 64 ≤ (i 1).val ∧ (i 1).val < win5_2.index t (1 : Fin 2) * 64 + 64
    rw [e5]; omega

/-- After the call the result array holds the whole arrays' value, as the call found them. -/
theorem bfinal5 (c : Dev nD) : (dat5 V c).arrAt 2 cfg5.N = addBias (V c main_v76) (rowOf (V c main_v77)) :=
  (dat5 V c).arrAt_eq_of_cover 2 (addBias (V c main_v76) (rowOf (V c main_v77))) (fun t _ => bflushed5_eq V c t) (bcover5)

end Cert.KernelIdeal.Hand

end
-- ==== Proof.KHostA.lean ====
/-
  The host operations of the idealized kernel's program before its first pipelined call, read over any buffer contents `V`.

  The first stretch builds the edges' ends from the edge list (a row of it, then every node once), counts the degrees
  and prepares the three operands of the select that guards the inverse square root; the one operation of the second
  stretch is that select; the third wraps negative ids, looks the node weights up at both ends of every edge and
  multiplies them. Each result is the corresponding function of the specification applied to what `V` holds in the
  buffers the stretch reads, and a buffer that no operation of a stretch writes is unchanged by it.
-/
import proofs.«128877_j87814901334539_1_alg».proof.Proof.Gen.KernelIdeal.Launch
import proofs.«128877_j87814901334539_1_alg».proof.Proof.Gen.ReferenceIdeal
import proofs.«128877_j87814901334539_1_alg».proof.Proof.GcnSpec
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Cert.Gcn

variable (V : Valuation τ sig (Elt Ideal))

/-- A buffer no operation of the stretch writes holds after the stretch what it held before. -/
macro "host_keepsA" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

set_option maxHeartbeats 4000000 in
/-- The edges' sources after the first stretch. -/
theorem ops0_v3 : StableHlo.after hostOps0 V (Proc.devRef .tc main_v3) = srcIds (V (Proc.devRef .tc main_arg1)) := by
  after_results_simp; rfl

set_option maxHeartbeats 4000000 in
/-- The edges' destinations after the first stretch. -/
theorem ops0_v6 : StableHlo.after hostOps0 V (Proc.devRef .tc main_v6) = dstIds (V (Proc.devRef .tc main_arg1)) := by
  after_results_simp; rfl

set_option maxHeartbeats 4000000 in
/-- Where the degree is positive. -/
theorem ops0_v12 : StableHlo.after hostOps0 V (Proc.devRef .tc main_v12)
    = cmpf (F := Ideal) .ogt (degree (dstIds (V (Proc.devRef .tc main_arg1)))) (broadcastInDim S100000 ![] bcast_S_S100000 (constant (F := Ideal) S_ .f32 0x00000000#32)) := by
  after_results_simp; rfl

set_option maxHeartbeats 4000000 in
/-- The inverse square root of the degree. -/
theorem ops0_v13 : StableHlo.after hostOps0 V (Proc.devRef .tc main_v13)
    = Host.rsqrt (F := Ideal) (degree (dstIds (V (Proc.devRef .tc main_arg1)))) := by
  after_results_simp; rfl

set_option maxHeartbeats 4000000 in
/-- The zeros the select falls back to. -/
theorem ops0_v14 : StableHlo.after hostOps0 V (Proc.devRef .tc main_v14) = (broadcastInDim S100000 ![] bcast_S_S100000 (constant (F := Ideal) S_ .f32 0x00000000#32)) := by
  after_results_simp

set_option maxHeartbeats 4000000 in
/-- The one operation of the second stretch: the guarded inverse square root. -/
theorem ops01_v15 : StableHlo.after hostOps0_1 V (Proc.devRef .tc main_v15)
    = select (V (Proc.devRef .tc main_v12)) (V (Proc.devRef .tc main_v13)) (V (Proc.devRef .tc main_v14)) := by
  after_results_simp; rfl

set_option maxHeartbeats 4000000 in
/-- The edge weights after the third stretch, from the node weights and the edges' ends it finds. -/
theorem ops02_v30 : StableHlo.after hostOps0_2 V (Proc.devRef .tc main_v30)
    = edgeNormOf (V (Proc.devRef .tc main_v15)) (V (Proc.devRef .tc main_v3)) (V (Proc.devRef .tc main_v6)) := by
  after_results_simp; rfl

theorem ops0_keep_main_arg0 : StableHlo.after hostOps0 V (Proc.devRef .tc main_arg0) = V (Proc.devRef .tc main_arg0) := by host_keepsA hostOps0
theorem ops0_keep_main_arg2 : StableHlo.after hostOps0 V (Proc.devRef .tc main_arg2) = V (Proc.devRef .tc main_arg2) := by host_keepsA hostOps0
theorem ops0_keep_main_arg3 : StableHlo.after hostOps0 V (Proc.devRef .tc main_arg3) = V (Proc.devRef .tc main_arg3) := by host_keepsA hostOps0
theorem ops0_keep_main_arg4 : StableHlo.after hostOps0 V (Proc.devRef .tc main_arg4) = V (Proc.devRef .tc main_arg4) := by host_keepsA hostOps0
theorem ops0_keep_main_arg5 : StableHlo.after hostOps0 V (Proc.devRef .tc main_arg5) = V (Proc.devRef .tc main_arg5) := by host_keepsA hostOps0
theorem ops0_keep_main_arg6 : StableHlo.after hostOps0 V (Proc.devRef .tc main_arg6) = V (Proc.devRef .tc main_arg6) := by host_keepsA hostOps0
theorem ops0_keep_main_arg7 : StableHlo.after hostOps0 V (Proc.devRef .tc main_arg7) = V (Proc.devRef .tc main_arg7) := by host_keepsA hostOps0

theorem ops01_keep_main_v3 : StableHlo.after hostOps0_1 V (Proc.devRef .tc main_v3) = V (Proc.devRef .tc main_v3) := by host_keepsA hostOps0_1
theorem ops01_keep_main_v6 : StableHlo.after hostOps0_1 V (Proc.devRef .tc main_v6) = V (Proc.devRef .tc main_v6) := by host_keepsA hostOps0_1
theorem ops01_keep_main_arg0 : StableHlo.after hostOps0_1 V (Proc.devRef .tc main_arg0) = V (Proc.devRef .tc main_arg0) := by host_keepsA hostOps0_1
theorem ops01_keep_main_arg2 : StableHlo.after hostOps0_1 V (Proc.devRef .tc main_arg2) = V (Proc.devRef .tc main_arg2) := by host_keepsA hostOps0_1
theorem ops01_keep_main_arg3 : StableHlo.after hostOps0_1 V (Proc.devRef .tc main_arg3) = V (Proc.devRef .tc main_arg3) := by host_keepsA hostOps0_1
theorem ops01_keep_main_arg4 : StableHlo.after hostOps0_1 V (Proc.devRef .tc main_arg4) = V (Proc.devRef .tc main_arg4) := by host_keepsA hostOps0_1
theorem ops01_keep_main_arg5 : StableHlo.after hostOps0_1 V (Proc.devRef .tc main_arg5) = V (Proc.devRef .tc main_arg5) := by host_keepsA hostOps0_1
theorem ops01_keep_main_arg6 : StableHlo.after hostOps0_1 V (Proc.devRef .tc main_arg6) = V (Proc.devRef .tc main_arg6) := by host_keepsA hostOps0_1
theorem ops01_keep_main_arg7 : StableHlo.after hostOps0_1 V (Proc.devRef .tc main_arg7) = V (Proc.devRef .tc main_arg7) := by host_keepsA hostOps0_1

theorem ops02_keep_main_v3 : StableHlo.after hostOps0_2 V (Proc.devRef .tc main_v3) = V (Proc.devRef .tc main_v3) := by host_keepsA hostOps0_2
theorem ops02_keep_main_v6 : StableHlo.after hostOps0_2 V (Proc.devRef .tc main_v6) = V (Proc.devRef .tc main_v6) := by host_keepsA hostOps0_2
theorem ops02_keep_main_arg0 : StableHlo.after hostOps0_2 V (Proc.devRef .tc main_arg0) = V (Proc.devRef .tc main_arg0) := by host_keepsA hostOps0_2
theorem ops02_keep_main_arg2 : StableHlo.after hostOps0_2 V (Proc.devRef .tc main_arg2) = V (Proc.devRef .tc main_arg2) := by host_keepsA hostOps0_2
theorem ops02_keep_main_arg3 : StableHlo.after hostOps0_2 V (Proc.devRef .tc main_arg3) = V (Proc.devRef .tc main_arg3) := by host_keepsA hostOps0_2
theorem ops02_keep_main_arg4 : StableHlo.after hostOps0_2 V (Proc.devRef .tc main_arg4) = V (Proc.devRef .tc main_arg4) := by host_keepsA hostOps0_2
theorem ops02_keep_main_arg5 : StableHlo.after hostOps0_2 V (Proc.devRef .tc main_arg5) = V (Proc.devRef .tc main_arg5) := by host_keepsA hostOps0_2
theorem ops02_keep_main_arg6 : StableHlo.after hostOps0_2 V (Proc.devRef .tc main_arg6) = V (Proc.devRef .tc main_arg6) := by host_keepsA hostOps0_2
theorem ops02_keep_main_arg7 : StableHlo.after hostOps0_2 V (Proc.devRef .tc main_arg7) = V (Proc.devRef .tc main_arg7) := by host_keepsA hostOps0_2

end Cert.KernelIdeal.Hand

end
-- ==== Proof.KHostB.lean ====
/-
  The host operations between the pipelined calls of the idealized kernel's program, read over any buffer contents `V`.

  Each of the three stretches wraps negative source ids, gathers the rows of the layer's product at the edges' sources,
  weighs every gathered row by its edge's weight and adds the rows up at the edges' destinations — one propagation step
  `hop` of the product the stretch finds — and re-casts the layer's bias vector to a one-row matrix. A buffer that no
  operation of a stretch writes is unchanged by it.
-/
import proofs.«128877_j87814901334539_1_alg».proof.Proof.Gen.KernelIdeal.Launch
import proofs.«128877_j87814901334539_1_alg».proof.Proof.Gen.ReferenceIdeal
import proofs.«128877_j87814901334539_1_alg».proof.Proof.GcnSpec
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo
open Cert.Gcn

variable (V : Valuation τ sig (Elt Ideal))

/-- A buffer no operation of the stretch writes holds after the stretch what it held before. -/
macro "host_keepsB" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

set_option maxHeartbeats 4000000 in
/-- The aggregated matrix of layer 1: one propagation step of the matrix the stretch finds, over the edges' ends and weights it finds. -/
theorem ops1_v44 : StableHlo.after hostOps1 V (Proc.devRef .tc main_v44)
    = hop128 (V (Proc.devRef .tc main_v3)) (V (Proc.devRef .tc main_v6)) (V (Proc.devRef .tc main_v30)) (V (Proc.devRef .tc main_v31)) := by
  after_results_simp; rfl

set_option maxHeartbeats 4000000 in
/-- The bias of layer 1 re-cast to one row. -/
theorem ops1_v45 : StableHlo.after hostOps1 V (Proc.devRef .tc main_v45)
    = shapeCast S1x128 (V (Proc.devRef .tc main_arg3)) shapeCasts_S128_S1x128 := by
  after_results_simp; rfl

set_option maxHeartbeats 4000000 in
/-- The aggregated matrix of layer 2: one propagation step of the matrix the stretch finds, over the edges' ends and weights it finds. -/
theorem ops3_v60 : StableHlo.after hostOps3 V (Proc.devRef .tc main_v60)
    = hop64 (V (Proc.devRef .tc main_v3)) (V (Proc.devRef .tc main_v6)) (V (Proc.devRef .tc main_v30)) (V (Proc.devRef .tc main_v47)) := by
  after_results_simp; rfl

set_option maxHeartbeats 4000000 in
/-- The bias of layer 2 re-cast to one row. -/
theorem ops3_v61 : StableHlo.after hostOps3 V (Proc.devRef .tc main_v61)
    = shapeCast S1x64 (V (Proc.devRef .tc main_arg5)) shapeCasts_S64_S1x64 := by
  after_results_simp; rfl

set_option maxHeartbeats 4000000 in
/-- The aggregated matrix of layer 3: one propagation step of the matrix the stretch finds, over the edges' ends and weights it finds. -/
theorem ops5_v76 : StableHlo.after hostOps5 V (Proc.devRef .tc main_v76)
    = hop64 (V (Proc.devRef .tc main_v3)) (V (Proc.devRef .tc main_v6)) (V (Proc.devRef .tc main_v30)) (V (Proc.devRef .tc main_v63)) := by
  after_results_simp; rfl

set_option maxHeartbeats 4000000 in
/-- The bias of layer 3 re-cast to one row. -/
theorem ops5_v77 : StableHlo.after hostOps5 V (Proc.devRef .tc main_v77)
    = shapeCast S1x64 (V (Proc.devRef .tc main_arg7)) shapeCasts_S64_S1x64 := by
  after_results_simp; rfl

theorem ops1_keep_main_v3 : StableHlo.after hostOps1 V (Proc.devRef .tc main_v3) = V (Proc.devRef .tc main_v3) := by host_keepsB hostOps1
theorem ops1_keep_main_v6 : StableHlo.after hostOps1 V (Proc.devRef .tc main_v6) = V (Proc.devRef .tc main_v6) := by host_keepsB hostOps1
theorem ops1_keep_main_v30 : StableHlo.after hostOps1 V (Proc.devRef .tc main_v30) = V (Proc.devRef .tc main_v30) := by host_keepsB hostOps1
theorem ops1_keep_main_arg4 : StableHlo.after hostOps1 V (Proc.devRef .tc main_arg4) = V (Proc.devRef .tc main_arg4) := by host_keepsB hostOps1
theorem ops1_keep_main_arg5 : StableHlo.after hostOps1 V (Proc.devRef .tc main_arg5) = V (Proc.devRef .tc main_arg5) := by host_keepsB hostOps1
theorem ops1_keep_main_arg6 : StableHlo.after hostOps1 V (Proc.devRef .tc main_arg6) = V (Proc.devRef .tc main_arg6) := by host_keepsB hostOps1
theorem ops1_keep_main_arg7 : StableHlo.after hostOps1 V (Proc.devRef .tc main_arg7) = V (Proc.devRef .tc main_arg7) := by host_keepsB hostOps1

theorem ops3_keep_main_v3 : StableHlo.after hostOps3 V (Proc.devRef .tc main_v3) = V (Proc.devRef .tc main_v3) := by host_keepsB hostOps3
theorem ops3_keep_main_v6 : StableHlo.after hostOps3 V (Proc.devRef .tc main_v6) = V (Proc.devRef .tc main_v6) := by host_keepsB hostOps3
theorem ops3_keep_main_v30 : StableHlo.after hostOps3 V (Proc.devRef .tc main_v30) = V (Proc.devRef .tc main_v30) := by host_keepsB hostOps3
theorem ops3_keep_main_arg6 : StableHlo.after hostOps3 V (Proc.devRef .tc main_arg6) = V (Proc.devRef .tc main_arg6) := by host_keepsB hostOps3
theorem ops3_keep_main_arg7 : StableHlo.after hostOps3 V (Proc.devRef .tc main_arg7) = V (Proc.devRef .tc main_arg7) := by host_keepsB hostOps3

end Cert.KernelIdeal.Hand

end
-- ==== Proof.KChain.lean ====
/-
  The idealized kernel's result, read through the fold of its run.

  The run's buffer contents are a fold through twelve segments. The arguments and, once computed, the edges' ends and
  weights are written by nothing later, so they reach every segment that reads them unchanged. Each pipelined call
  leaves its result array at the dense stage of the arrays it finds (a product, or a bias with or without the rectifier),
  and each host stretch between the calls applies one propagation step to the product it finds. Composing the twelve
  segments, the result buffer ends holding `gcn` of the arguments: three layers `hop (x · W) + b`, the first two followed
  by the rectifier.
-/
import proofs.«128877_j87814901334539_1_alg».proof.Proof.Gen.KernelIdeal.Frame
import proofs.«128877_j87814901334539_1_alg».proof.Proof.Gen.ReferenceIdeal
import proofs.«128877_j87814901334539_1_alg».proof.Proof.GcnSpec
import proofs.«128877_j87814901334539_1_alg».proof.Proof.LibBiasRow
import proofs.«128877_j87814901334539_1_alg».proof.Proof.KMat0
import proofs.«128877_j87814901334539_1_alg».proof.Proof.KBias1
import proofs.«128877_j87814901334539_1_alg».proof.Proof.KMat2
import proofs.«128877_j87814901334539_1_alg».proof.Proof.KBias3
import proofs.«128877_j87814901334539_1_alg».proof.Proof.KMat4
import proofs.«128877_j87814901334539_1_alg».proof.Proof.KBias5
import proofs.«128877_j87814901334539_1_alg».proof.Proof.KHostA
import proofs.«128877_j87814901334539_1_alg».proof.Proof.KHostB
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Gcn

variable (m : (ℓ : Loc nD τ sig) → Buf (Elt Ideal) ℓ) (ρ : Dev nD → PrngReg)

/-- The arguments reach the first call as launched: no host operation before it writes one. -/
theorem W3_main_arg0 (c : Dev nD) : W3 m ρ c (Proc.devRef .tc main_arg0) = (m ((c : Thread nD τ).loc main_arg0)) :=
  (ops02_keep_main_arg0 (W2 m ρ c)).trans ((ops01_keep_main_arg0 (W1 m ρ c)).trans ((ops0_keep_main_arg0 (W0 m ρ c)).trans rfl))

theorem W3_main_arg2 (c : Dev nD) : W3 m ρ c (Proc.devRef .tc main_arg2) = (m ((c : Thread nD τ).loc main_arg2)) :=
  (ops02_keep_main_arg2 (W2 m ρ c)).trans ((ops01_keep_main_arg2 (W1 m ρ c)).trans ((ops0_keep_main_arg2 (W0 m ρ c)).trans rfl))

theorem W3_main_arg3 (c : Dev nD) : W3 m ρ c (Proc.devRef .tc main_arg3) = (m ((c : Thread nD τ).loc main_arg3)) :=
  (ops02_keep_main_arg3 (W2 m ρ c)).trans ((ops01_keep_main_arg3 (W1 m ρ c)).trans ((ops0_keep_main_arg3 (W0 m ρ c)).trans rfl))

theorem W3_main_arg4 (c : Dev nD) : W3 m ρ c (Proc.devRef .tc main_arg4) = (m ((c : Thread nD τ).loc main_arg4)) :=
  (ops02_keep_main_arg4 (W2 m ρ c)).trans ((ops01_keep_main_arg4 (W1 m ρ c)).trans ((ops0_keep_main_arg4 (W0 m ρ c)).trans rfl))

theorem W3_main_arg5 (c : Dev nD) : W3 m ρ c (Proc.devRef .tc main_arg5) = (m ((c : Thread nD τ).loc main_arg5)) :=
  (ops02_keep_main_arg5 (W2 m ρ c)).trans ((ops01_keep_main_arg5 (W1 m ρ c)).trans ((ops0_keep_main_arg5 (W0 m ρ c)).trans rfl))

theorem W3_main_arg6 (c : Dev nD) : W3 m ρ c (Proc.devRef .tc main_arg6) = (m ((c : Thread nD τ).loc main_arg6)) :=
  (ops02_keep_main_arg6 (W2 m ρ c)).trans ((ops01_keep_main_arg6 (W1 m ρ c)).trans ((ops0_keep_main_arg6 (W0 m ρ c)).trans rfl))

theorem W3_main_arg7 (c : Dev nD) : W3 m ρ c (Proc.devRef .tc main_arg7) = (m ((c : Thread nD τ).loc main_arg7)) :=
  (ops02_keep_main_arg7 (W2 m ρ c)).trans ((ops01_keep_main_arg7 (W1 m ρ c)).trans ((ops0_keep_main_arg7 (W0 m ρ c)).trans rfl))

/-- The three operands of the guarded inverse square root, after the first stretch. -/
theorem W1_main_v12 (c : Dev nD) : W1 m ρ c (Proc.devRef .tc main_v12) = cmpf (F := Ideal) .ogt (degree (dstIds (m ((c : Thread nD τ).loc main_arg1)))) (broadcastInDim S100000 ![] bcast_S_S100000 (constant (F := Ideal) S_ .f32 0x00000000#32)) :=
  (ops0_v12 (W0 m ρ c)).trans rfl

theorem W1_main_v13 (c : Dev nD) : W1 m ρ c (Proc.devRef .tc main_v13) = Host.rsqrt (F := Ideal) (degree (dstIds (m ((c : Thread nD τ).loc main_arg1)))) :=
  (ops0_v13 (W0 m ρ c)).trans rfl

theorem W1_main_v14 (c : Dev nD) : W1 m ρ c (Proc.devRef .tc main_v14) = (broadcastInDim S100000 ![] bcast_S_S100000 (constant (F := Ideal) S_ .f32 0x00000000#32)) :=
  ops0_v14 (W0 m ρ c)

/-- The edges' ends after the second stretch. -/
theorem W2_main_v3 (c : Dev nD) : W2 m ρ c (Proc.devRef .tc main_v3) = (srcIds (m ((c : Thread nD τ).loc main_arg1))) :=
  (ops01_keep_main_v3 (W1 m ρ c)).trans ((ops0_v3 (W0 m ρ c)).trans rfl)

theorem W2_main_v6 (c : Dev nD) : W2 m ρ c (Proc.devRef .tc main_v6) = (dstIds (m ((c : Thread nD τ).loc main_arg1))) :=
  (ops01_keep_main_v6 (W1 m ρ c)).trans ((ops0_v6 (W0 m ρ c)).trans rfl)

/-- The node weights: the inverse square root of the degree where it is positive, zero elsewhere. -/
theorem W2_main_v15 (c : Dev nD) : W2 m ρ c (Proc.devRef .tc main_v15) = invSqrtDegree (dstIds (m ((c : Thread nD τ).loc main_arg1))) :=
  (ops01_v15 (W1 m ρ c)).trans (by rw [W1_main_v12 m ρ c, W1_main_v13 m ρ c, W1_main_v14 m ρ c]; rfl)

/-- The edges' ends and weights as the first call finds them. -/
theorem W3_main_v3 (c : Dev nD) : W3 m ρ c (Proc.devRef .tc main_v3) = (srcIds (m ((c : Thread nD τ).loc main_arg1))) :=
  (ops02_keep_main_v3 (W2 m ρ c)).trans (W2_main_v3 m ρ c)

theorem W3_main_v6 (c : Dev nD) : W3 m ρ c (Proc.devRef .tc main_v6) = (dstIds (m ((c : Thread nD τ).loc main_arg1))) :=
  (ops02_keep_main_v6 (W2 m ρ c)).trans (W2_main_v6 m ρ c)

theorem W3_main_v30 (c : Dev nD) : W3 m ρ c (Proc.devRef .tc main_v30) = (edgeNorm (srcIds (m ((c : Thread nD τ).loc main_arg1))) (dstIds (m ((c : Thread nD τ).loc main_arg1)))) :=
  (ops02_v30 (W2 m ρ c)).trans (by rw [W2_main_v15 m ρ c, W2_main_v3 m ρ c, W2_main_v6 m ρ c]; rfl)

/-- After the first call: the first layer's product. -/
theorem W4_main_v31 (c : Dev nD) : W4 m ρ c (Proc.devRef .tc main_v31) = linear (m ((c : Thread nD τ).loc main_arg0)) (m ((c : Thread nD τ).loc main_arg2)) :=
  (W4_arr m ρ c 2).trans ((final0 (V3 m ρ) c).trans (by
    show linear (W3 m ρ c (Proc.devRef .tc main_arg0)) (W3 m ρ c (Proc.devRef .tc main_arg2)) = _
    rw [W3_main_arg0 m ρ c, W3_main_arg2 m ρ c]))

theorem W4_main_v3 (c : Dev nD) : W4 m ρ c (Proc.devRef .tc main_v3) = (srcIds (m ((c : Thread nD τ).loc main_arg1))) :=
  (W4_of_ne m ρ c main_v3 (by decide)).trans (W3_main_v3 m ρ c)

theorem W4_main_v6 (c : Dev nD) : W4 m ρ c (Proc.devRef .tc main_v6) = (dstIds (m ((c : Thread nD τ).loc main_arg1))) :=
  (W4_of_ne m ρ c main_v6 (by decide)).trans (W3_main_v6 m ρ c)

theorem W4_main_v30 (c : Dev nD) : W4 m ρ c (Proc.devRef .tc main_v30) = (edgeNorm (srcIds (m ((c : Thread nD τ).loc main_arg1))) (dstIds (m ((c : Thread nD τ).loc main_arg1)))) :=
  (W4_of_ne m ρ c main_v30 (by decide)).trans (W3_main_v30 m ρ c)

theorem W4_main_arg3 (c : Dev nD) : W4 m ρ c (Proc.devRef .tc main_arg3) = (m ((c : Thread nD τ).loc main_arg3)) :=
  (W4_of_ne m ρ c main_arg3 (by decide)).trans (W3_main_arg3 m ρ c)

theorem W4_main_arg4 (c : Dev nD) : W4 m ρ c (Proc.devRef .tc main_arg4) = (m ((c : Thread nD τ).loc main_arg4)) :=
  (W4_of_ne m ρ c main_arg4 (by decide)).trans (W3_main_arg4 m ρ c)

theorem W4_main_arg5 (c : Dev nD) : W4 m ρ c (Proc.devRef .tc main_arg5) = (m ((c : Thread nD τ).loc main_arg5)) :=
  (W4_of_ne m ρ c main_arg5 (by decide)).trans (W3_main_arg5 m ρ c)

theorem W4_main_arg6 (c : Dev nD) : W4 m ρ c (Proc.devRef .tc main_arg6) = (m ((c : Thread nD τ).loc main_arg6)) :=
  (W4_of_ne m ρ c main_arg6 (by decide)).trans (W3_main_arg6 m ρ c)

theorem W4_main_arg7 (c : Dev nD) : W4 m ρ c (Proc.devRef .tc main_arg7) = (m ((c : Thread nD τ).loc main_arg7)) :=
  (W4_of_ne m ρ c main_arg7 (by decide)).trans (W3_main_arg7 m ρ c)

/-- The first layer's product propagated along the edges, and its bias as one row. -/
theorem W5_main_v44 (c : Dev nD) : W5 m ρ c (Proc.devRef .tc main_v44) = hop128 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (m ((c : Thread nD τ).loc main_arg0)) (m ((c : Thread nD τ).loc main_arg2))) :=
  (ops1_v44 (W4 m ρ c)).trans (by rw [W4_main_v3 m ρ c, W4_main_v6 m ρ c, W4_main_v30 m ρ c, W4_main_v31 m ρ c])

theorem W5_main_v45 (c : Dev nD) : W5 m ρ c (Proc.devRef .tc main_v45) = shapeCast S1x128 (m ((c : Thread nD τ).loc main_arg3)) shapeCasts_S128_S1x128 :=
  (ops1_v45 (W4 m ρ c)).trans (by rw [W4_main_arg3 m ρ c])

theorem W5_main_v3 (c : Dev nD) : W5 m ρ c (Proc.devRef .tc main_v3) = (srcIds (m ((c : Thread nD τ).loc main_arg1))) :=
  (ops1_keep_main_v3 (W4 m ρ c)).trans (W4_main_v3 m ρ c)

theorem W5_main_v6 (c : Dev nD) : W5 m ρ c (Proc.devRef .tc main_v6) = (dstIds (m ((c : Thread nD τ).loc main_arg1))) :=
  (ops1_keep_main_v6 (W4 m ρ c)).trans (W4_main_v6 m ρ c)

theorem W5_main_v30 (c : Dev nD) : W5 m ρ c (Proc.devRef .tc main_v30) = (edgeNorm (srcIds (m ((c : Thread nD τ).loc main_arg1))) (dstIds (m ((c : Thread nD τ).loc main_arg1)))) :=
  (ops1_keep_main_v30 (W4 m ρ c)).trans (W4_main_v30 m ρ c)

theorem W5_main_arg4 (c : Dev nD) : W5 m ρ c (Proc.devRef .tc main_arg4) = (m ((c : Thread nD τ).loc main_arg4)) :=
  (ops1_keep_main_arg4 (W4 m ρ c)).trans (W4_main_arg4 m ρ c)

theorem W5_main_arg5 (c : Dev nD) : W5 m ρ c (Proc.devRef .tc main_arg5) = (m ((c : Thread nD τ).loc main_arg5)) :=
  (ops1_keep_main_arg5 (W4 m ρ c)).trans (W4_main_arg5 m ρ c)

theorem W5_main_arg6 (c : Dev nD) : W5 m ρ c (Proc.devRef .tc main_arg6) = (m ((c : Thread nD τ).loc main_arg6)) :=
  (ops1_keep_main_arg6 (W4 m ρ c)).trans (W4_main_arg6 m ρ c)

theorem W5_main_arg7 (c : Dev nD) : W5 m ρ c (Proc.devRef .tc main_arg7) = (m ((c : Thread nD τ).loc main_arg7)) :=
  (ops1_keep_main_arg7 (W4 m ρ c)).trans (W4_main_arg7 m ρ c)

/-- After the second call: the first layer's output. -/
theorem W6_main_v46 (c : Dev nD) : W6 m ρ c (Proc.devRef .tc main_v46) = biasRelu (hop128 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (m ((c : Thread nD τ).loc main_arg0)) (m ((c : Thread nD τ).loc main_arg2)))) (m ((c : Thread nD τ).loc main_arg3)) :=
  (W6_arr m ρ c 2).trans ((bfinal1 (V5 m ρ) c).trans (by
    show biasRelu (W5 m ρ c (Proc.devRef .tc main_v44)) (rowOf (W5 m ρ c (Proc.devRef .tc main_v45))) = _
    rw [W5_main_v44 m ρ c, W5_main_v45 m ρ c, rowOf_shapeCast]))

theorem W6_main_v3 (c : Dev nD) : W6 m ρ c (Proc.devRef .tc main_v3) = (srcIds (m ((c : Thread nD τ).loc main_arg1))) :=
  (W6_of_ne m ρ c main_v3 (by decide)).trans (W5_main_v3 m ρ c)

theorem W6_main_v6 (c : Dev nD) : W6 m ρ c (Proc.devRef .tc main_v6) = (dstIds (m ((c : Thread nD τ).loc main_arg1))) :=
  (W6_of_ne m ρ c main_v6 (by decide)).trans (W5_main_v6 m ρ c)

theorem W6_main_v30 (c : Dev nD) : W6 m ρ c (Proc.devRef .tc main_v30) = (edgeNorm (srcIds (m ((c : Thread nD τ).loc main_arg1))) (dstIds (m ((c : Thread nD τ).loc main_arg1)))) :=
  (W6_of_ne m ρ c main_v30 (by decide)).trans (W5_main_v30 m ρ c)

theorem W6_main_arg4 (c : Dev nD) : W6 m ρ c (Proc.devRef .tc main_arg4) = (m ((c : Thread nD τ).loc main_arg4)) :=
  (W6_of_ne m ρ c main_arg4 (by decide)).trans (W5_main_arg4 m ρ c)

theorem W6_main_arg5 (c : Dev nD) : W6 m ρ c (Proc.devRef .tc main_arg5) = (m ((c : Thread nD τ).loc main_arg5)) :=
  (W6_of_ne m ρ c main_arg5 (by decide)).trans (W5_main_arg5 m ρ c)

theorem W6_main_arg6 (c : Dev nD) : W6 m ρ c (Proc.devRef .tc main_arg6) = (m ((c : Thread nD τ).loc main_arg6)) :=
  (W6_of_ne m ρ c main_arg6 (by decide)).trans (W5_main_arg6 m ρ c)

theorem W6_main_arg7 (c : Dev nD) : W6 m ρ c (Proc.devRef .tc main_arg7) = (m ((c : Thread nD τ).loc main_arg7)) :=
  (W6_of_ne m ρ c main_arg7 (by decide)).trans (W5_main_arg7 m ρ c)

/-- After the third call: the second layer's product. -/
theorem W7_main_v47 (c : Dev nD) : W7 m ρ c (Proc.devRef .tc main_v47) = linear (biasRelu (hop128 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (m ((c : Thread nD τ).loc main_arg0)) (m ((c : Thread nD τ).loc main_arg2)))) (m ((c : Thread nD τ).loc main_arg3))) (m ((c : Thread nD τ).loc main_arg4)) :=
  (W7_arr m ρ c 2).trans ((final2 (V6 m ρ) c).trans (by
    show linear (W6 m ρ c (Proc.devRef .tc main_v46)) (W6 m ρ c (Proc.devRef .tc main_arg4)) = _
    rw [W6_main_v46 m ρ c, W6_main_arg4 m ρ c]))

theorem W7_main_v3 (c : Dev nD) : W7 m ρ c (Proc.devRef .tc main_v3) = (srcIds (m ((c : Thread nD τ).loc main_arg1))) :=
  (W7_of_ne m ρ c main_v3 (by decide)).trans (W6_main_v3 m ρ c)

theorem W7_main_v6 (c : Dev nD) : W7 m ρ c (Proc.devRef .tc main_v6) = (dstIds (m ((c : Thread nD τ).loc main_arg1))) :=
  (W7_of_ne m ρ c main_v6 (by decide)).trans (W6_main_v6 m ρ c)

theorem W7_main_v30 (c : Dev nD) : W7 m ρ c (Proc.devRef .tc main_v30) = (edgeNorm (srcIds (m ((c : Thread nD τ).loc main_arg1))) (dstIds (m ((c : Thread nD τ).loc main_arg1)))) :=
  (W7_of_ne m ρ c main_v30 (by decide)).trans (W6_main_v30 m ρ c)

theorem W7_main_arg5 (c : Dev nD) : W7 m ρ c (Proc.devRef .tc main_arg5) = (m ((c : Thread nD τ).loc main_arg5)) :=
  (W7_of_ne m ρ c main_arg5 (by decide)).trans (W6_main_arg5 m ρ c)

theorem W7_main_arg6 (c : Dev nD) : W7 m ρ c (Proc.devRef .tc main_arg6) = (m ((c : Thread nD τ).loc main_arg6)) :=
  (W7_of_ne m ρ c main_arg6 (by decide)).trans (W6_main_arg6 m ρ c)

theorem W7_main_arg7 (c : Dev nD) : W7 m ρ c (Proc.devRef .tc main_arg7) = (m ((c : Thread nD τ).loc main_arg7)) :=
  (W7_of_ne m ρ c main_arg7 (by decide)).trans (W6_main_arg7 m ρ c)

/-- The second layer's product propagated along the edges, and its bias as one row. -/
theorem W8_main_v60 (c : Dev nD) : W8 m ρ c (Proc.devRef .tc main_v60) = hop64 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (biasRelu (hop128 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (m ((c : Thread nD τ).loc main_arg0)) (m ((c : Thread nD τ).loc main_arg2)))) (m ((c : Thread nD τ).loc main_arg3))) (m ((c : Thread nD τ).loc main_arg4))) :=
  (ops3_v60 (W7 m ρ c)).trans (by rw [W7_main_v3 m ρ c, W7_main_v6 m ρ c, W7_main_v30 m ρ c, W7_main_v47 m ρ c])

theorem W8_main_v61 (c : Dev nD) : W8 m ρ c (Proc.devRef .tc main_v61) = shapeCast S1x64 (m ((c : Thread nD τ).loc main_arg5)) shapeCasts_S64_S1x64 :=
  (ops3_v61 (W7 m ρ c)).trans (by rw [W7_main_arg5 m ρ c])

theorem W8_main_v3 (c : Dev nD) : W8 m ρ c (Proc.devRef .tc main_v3) = (srcIds (m ((c : Thread nD τ).loc main_arg1))) :=
  (ops3_keep_main_v3 (W7 m ρ c)).trans (W7_main_v3 m ρ c)

theorem W8_main_v6 (c : Dev nD) : W8 m ρ c (Proc.devRef .tc main_v6) = (dstIds (m ((c : Thread nD τ).loc main_arg1))) :=
  (ops3_keep_main_v6 (W7 m ρ c)).trans (W7_main_v6 m ρ c)

theorem W8_main_v30 (c : Dev nD) : W8 m ρ c (Proc.devRef .tc main_v30) = (edgeNorm (srcIds (m ((c : Thread nD τ).loc main_arg1))) (dstIds (m ((c : Thread nD τ).loc main_arg1)))) :=
  (ops3_keep_main_v30 (W7 m ρ c)).trans (W7_main_v30 m ρ c)

theorem W8_main_arg6 (c : Dev nD) : W8 m ρ c (Proc.devRef .tc main_arg6) = (m ((c : Thread nD τ).loc main_arg6)) :=
  (ops3_keep_main_arg6 (W7 m ρ c)).trans (W7_main_arg6 m ρ c)

theorem W8_main_arg7 (c : Dev nD) : W8 m ρ c (Proc.devRef .tc main_arg7) = (m ((c : Thread nD τ).loc main_arg7)) :=
  (ops3_keep_main_arg7 (W7 m ρ c)).trans (W7_main_arg7 m ρ c)

/-- After the fourth call: the second layer's output. -/
theorem W9_main_v62 (c : Dev nD) : W9 m ρ c (Proc.devRef .tc main_v62) = biasRelu (hop64 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (biasRelu (hop128 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (m ((c : Thread nD τ).loc main_arg0)) (m ((c : Thread nD τ).loc main_arg2)))) (m ((c : Thread nD τ).loc main_arg3))) (m ((c : Thread nD τ).loc main_arg4)))) (m ((c : Thread nD τ).loc main_arg5)) :=
  (W9_arr m ρ c 2).trans ((bfinal3 (V8 m ρ) c).trans (by
    show biasRelu (W8 m ρ c (Proc.devRef .tc main_v60)) (rowOf (W8 m ρ c (Proc.devRef .tc main_v61))) = _
    rw [W8_main_v60 m ρ c, W8_main_v61 m ρ c, rowOf_shapeCast]))

theorem W9_main_v3 (c : Dev nD) : W9 m ρ c (Proc.devRef .tc main_v3) = (srcIds (m ((c : Thread nD τ).loc main_arg1))) :=
  (W9_of_ne m ρ c main_v3 (by decide)).trans (W8_main_v3 m ρ c)

theorem W9_main_v6 (c : Dev nD) : W9 m ρ c (Proc.devRef .tc main_v6) = (dstIds (m ((c : Thread nD τ).loc main_arg1))) :=
  (W9_of_ne m ρ c main_v6 (by decide)).trans (W8_main_v6 m ρ c)

theorem W9_main_v30 (c : Dev nD) : W9 m ρ c (Proc.devRef .tc main_v30) = (edgeNorm (srcIds (m ((c : Thread nD τ).loc main_arg1))) (dstIds (m ((c : Thread nD τ).loc main_arg1)))) :=
  (W9_of_ne m ρ c main_v30 (by decide)).trans (W8_main_v30 m ρ c)

theorem W9_main_arg6 (c : Dev nD) : W9 m ρ c (Proc.devRef .tc main_arg6) = (m ((c : Thread nD τ).loc main_arg6)) :=
  (W9_of_ne m ρ c main_arg6 (by decide)).trans (W8_main_arg6 m ρ c)

theorem W9_main_arg7 (c : Dev nD) : W9 m ρ c (Proc.devRef .tc main_arg7) = (m ((c : Thread nD τ).loc main_arg7)) :=
  (W9_of_ne m ρ c main_arg7 (by decide)).trans (W8_main_arg7 m ρ c)

/-- After the fifth call: the third layer's product. -/
theorem W10_main_v63 (c : Dev nD) : W10 m ρ c (Proc.devRef .tc main_v63) = linear (biasRelu (hop64 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (biasRelu (hop128 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)) :=
  (W10_arr m ρ c 2).trans ((final4 (V9 m ρ) c).trans (by
    show linear (W9 m ρ c (Proc.devRef .tc main_v62)) (W9 m ρ c (Proc.devRef .tc main_arg6)) = _
    rw [W9_main_v62 m ρ c, W9_main_arg6 m ρ c]))

theorem W10_main_v3 (c : Dev nD) : W10 m ρ c (Proc.devRef .tc main_v3) = (srcIds (m ((c : Thread nD τ).loc main_arg1))) :=
  (W10_of_ne m ρ c main_v3 (by decide)).trans (W9_main_v3 m ρ c)

theorem W10_main_v6 (c : Dev nD) : W10 m ρ c (Proc.devRef .tc main_v6) = (dstIds (m ((c : Thread nD τ).loc main_arg1))) :=
  (W10_of_ne m ρ c main_v6 (by decide)).trans (W9_main_v6 m ρ c)

theorem W10_main_v30 (c : Dev nD) : W10 m ρ c (Proc.devRef .tc main_v30) = (edgeNorm (srcIds (m ((c : Thread nD τ).loc main_arg1))) (dstIds (m ((c : Thread nD τ).loc main_arg1)))) :=
  (W10_of_ne m ρ c main_v30 (by decide)).trans (W9_main_v30 m ρ c)

theorem W10_main_arg7 (c : Dev nD) : W10 m ρ c (Proc.devRef .tc main_arg7) = (m ((c : Thread nD τ).loc main_arg7)) :=
  (W10_of_ne m ρ c main_arg7 (by decide)).trans (W9_main_arg7 m ρ c)

/-- The third layer's product propagated along the edges, and its bias as one row. -/
theorem W11_main_v76 (c : Dev nD) : W11 m ρ c (Proc.devRef .tc main_v76) = hop64 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (biasRelu (hop64 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (biasRelu (hop128 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6))) :=
  (ops5_v76 (W10 m ρ c)).trans (by rw [W10_main_v3 m ρ c, W10_main_v6 m ρ c, W10_main_v30 m ρ c, W10_main_v63 m ρ c])

theorem W11_main_v77 (c : Dev nD) : W11 m ρ c (Proc.devRef .tc main_v77) = shapeCast S1x64 (m ((c : Thread nD τ).loc main_arg7)) shapeCasts_S64_S1x64 :=
  (ops5_v77 (W10 m ρ c)).trans (by rw [W10_main_arg7 m ρ c])

/-- After the last call: the third layer's output, the program's result. -/
theorem W12_main_v78 (c : Dev nD) : W12 m ρ c (Proc.devRef .tc main_v78) = addBias (hop64 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (biasRelu (hop64 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (biasRelu (hop128 (srcIds (m ((c : Thread nD τ).loc main_arg1))) (dstIds (m ((c : Thread nD τ).loc main_arg1))) (edgeNorm (srcIds (m ((c : Thread nD τ).loc main_arg1))) (dstIds (m ((c : Thread nD τ).loc main_arg1)))) (linear (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)))) (m ((c : Thread nD τ).loc main_arg7)) :=
  (W12_arr m ρ c 2).trans ((bfinal5 (V11 m ρ) c).trans (by
    show addBias (W11 m ρ c (Proc.devRef .tc main_v76)) (rowOf (W11 m ρ c (Proc.devRef .tc main_v77))) = _
    rw [W11_main_v76 m ρ c, W11_main_v77 m ρ c, rowOf_shapeCast]))

/-- The result buffer's last contents are the network of the arguments. -/
theorem result_eq (c : Dev nD) : W12 m ρ c (Proc.devRef .tc main_v78) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_main_v78 m ρ c).trans rfl

end Cert.KernelIdeal.Hand

end
-- ==== Proof.lean ====
/-
  A three-layer graph convolution network: the Pallas program against its jnp reference, equal on the extended reals.

  Both programs add a self loop to every one of the 100000 nodes, weigh every edge by the inverse square roots of its two
  ends' degrees, and apply three layers `hop (x · W) + b` (widths 13 → 128 → 64 → 64), the first two followed by the
  rectifier, where `hop` gathers the rows of its operand at the edges' sources, scales them by the edges' weights and
  adds them up at the edges' destinations. The Pallas program computes each product `x · W` and each bias (with the
  rectifier) in a pipelined call over ten row blocks and leaves the gather and the scatter-add to the host; the
  reference does everything on the host and recomputes the edge weights in each layer.
  At the ideal values a change of float format is the identity and a product accumulated from zero is the plain sum over
  the contracted axis, so every call leaves the same array as the reference's host operation (a row block of a product is
  the product of the row block; a bias and a rectifier act entry by entry), and the host operations between the calls are
  the reference's own. Both results are therefore one function `Cert.Gcn.gcn` of the arguments. No law beyond the
  definitions is used, so the precondition (finite inputs) is not opened, and the integer edge list may hold anything:
  both programs read it through the same gather and scatter-add.
  The three frames: the two kernels' are their generated frame certificates; the reference's is its run with the result
  dropped. The idealization rewrote nothing, so `preserves` has nothing to state.
-/
import proofs.«128877_j87814901334539_1_alg».proof.Defs
import proofs.«128877_j87814901334539_1_alg».proof.Proof.Gen.Kernel
import proofs.«128877_j87814901334539_1_alg».proof.Proof.Gen.Kernel.Skeleton
import proofs.«128877_j87814901334539_1_alg».proof.Proof.Gen.Kernel.Launch
import proofs.«128877_j87814901334539_1_alg».proof.Proof.Gen.Kernel.Points
import proofs.«128877_j87814901334539_1_alg».proof.Proof.Gen.Kernel.Frame
import proofs.«128877_j87814901334539_1_alg».proof.Proof.Gen.KernelIdeal
import proofs.«128877_j87814901334539_1_alg».proof.Proof.Gen.KernelIdeal.Skeleton
import proofs.«128877_j87814901334539_1_alg».proof.Proof.Gen.KernelIdeal.Launch
import proofs.«128877_j87814901334539_1_alg».proof.Proof.Gen.KernelIdeal.Points
import proofs.«128877_j87814901334539_1_alg».proof.Proof.Gen.KernelIdeal.Frame
import proofs.«128877_j87814901334539_1_alg».proof.Proof.Gen.ReferenceIdeal
import proofs.«128877_j87814901334539_1_alg».proof.Proof.RefRun
import proofs.«128877_j87814901334539_1_alg».proof.Proof.Gen.Pre_finite_inputs
import proofs.«128877_j87814901334539_1_alg».proof.Proof.RefValue
import proofs.«128877_j87814901334539_1_alg».proof.Proof.KRun
import proofs.«128877_j87814901334539_1_alg».proof.Proof.KChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with `gcn` of the arguments in their result buffers. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.RefValue.res_eq m' c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
